-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg7 : FVec F S64 .f32) (main_arg13 : FVec F S64 .f32) (main_arg15 : FVec F S40 .f32) (main_v63 : IVec S_ 1) (main_v67 : IVec S_ 1) : IVec S_ 1 :=
  let main_v68 : IVec S_ 1 := andi main_v63 main_v67
  let main_v69 : FVec F S40 .f32 := Host.absf main_arg15
  let main_cst_26 : FVec F S_ .f32 := constant S_ .f32 0x7F800000#32
  let main_v70 : FVec F S40 .f32 := broadcastInDim S40 ![] bcast_S_S40 main_cst_26
  let main_v71 : IVec S40 1 := cmpf .olt main_v69 main_v70
  let main_c_27 : IVec S_ 1 := constantI S_ 1 1#1
  let main_v72 : IVec S_ 1 := (fun x v => Host.reduce IntOp.andi x v reducesTo_S40_S_d0 h_S_) main_v71 main_c_27
  let main_v73 : IVec S_ 1 := andi main_v68 main_v72
  let main_cst_28 : FVec F S_ .f32 := constant S_ .f32 0x00000000#32
  let main_v74 : FVec F S64 .f32 := broadcastInDim S64 ![] bcast_S_S64 main_cst_28
  let main_v75 : IVec S64 1 := cmpf .oge main_arg7 main_v74
  let main_c_29 : IVec S_ 1 := constantI S_ 1 1#1
  let main_v76 : IVec S_ 1 := (fun x v => Host.reduce IntOp.andi x v reducesTo_S64_S_d0 h_S_) main_v75 main_c_29
  let main_v77 : IVec S_ 1 := andi main_v73 main_v76
  let main_cst_30 : FVec F S_ .f32 := constant S_ .f32 0x00000000#32
  let main_v78 : FVec F S64 .f32 := broadcastInDim S64 ![] bcast_S_S64 main_cst_30
  let main_v79 : IVec S64 1 := cmpf .oge main_arg13 main_v78
  let main_c_31 : IVec S_ 1 := constantI S_ 1 1#1
  let main_v80 : IVec S_ 1 := (fun x v => Host.reduce IntOp.andi x v reducesTo_S64_S_d0 h_S_) main_v79 main_c_31
  let main_v81 : IVec S_ 1 := andi main_v77 main_v80
  main_v81

def fn_part3 {F : FTy → Type} [FloatOps F] (main_arg7 : FVec F S64 .f32) (main_arg12 : FVec F S64 .f32) (main_arg13 : FVec F S64 .f32) (main_arg14 : FVec F S64x40 .f32) (main_arg15 : FVec F S40 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x40 .f32 := Host.absf main_arg14
  let main_cst_24 : FVec F S_ .f32 := constant S_ .f32 0x7F800000#32
  let main_v65 : FVec F S64x40 .f32 := broadcastInDim S64x40 ![] bcast_S_S64x40 main_cst_24
  let main_v66 : IVec S64x40 1 := cmpf .olt main_v64 main_v65
  let main_c_25 : IVec S_ 1 := constantI S_ 1 1#1
  let main_v67 : IVec S_ 1 := (fun x v => Host.reduce IntOp.andi x v reducesTo_S64x40_S_d0_1 h_S_) main_v66 main_c_25
  fn_part4 (F := F) main_arg7 main_arg13 main_arg15 main_v63 main_v67

def fn_part2 {F : FTy → Type} [FloatOps F] (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x40 .f32) (main_arg15 : FVec F S40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg7 main_arg12 main_arg13 main_arg14 main_arg15 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x40 .f32) (main_arg15 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64 .f32) (main_arg11 : FVec F S64 .f32) (main_arg12 : FVec F S64 .f32) (main_arg13 : FVec F S64 .f32) (main_arg14 : FVec F S64x40 .f32) (main_arg15 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 134
  | .vmem => 33
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64, .f32⟩
  | 13 => ⟨S64, .f32⟩
  | 14 => ⟨S64x40, .f32⟩
  | 15 => ⟨S40, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S_, .f32⟩
  | 74 => ⟨S64, .f32⟩
  | 75 => ⟨S64, .f32⟩
  | 76 => ⟨S64, .f32⟩
  | 77 => ⟨S64, .f32⟩
  | 78 => ⟨S64, .f32⟩
  | 79 => ⟨S64, .f32⟩
  | 80 => ⟨S64, .f32⟩
  | 81 => ⟨S1x64, .f32⟩
  | 82 => ⟨S1x64, .f32⟩
  | 83 => ⟨S100000x64, .f32⟩
  | 84 => ⟨S100000x64, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x64, .f32⟩
  | 94 => ⟨S1700000x1, .f32⟩
  | 95 => ⟨S1700000x64, .f32⟩
  | 96 => ⟨S1700000x64, .f32⟩
  | 97 => ⟨S_, .f32⟩
  | 98 => ⟨S100000x64, .f32⟩
  | 99 => ⟨S1700000x1, .i32⟩
  | 100 => ⟨S100000x64, .f32⟩
  | 101 => ⟨S_, .f32⟩
  | 102 => ⟨S64, .f32⟩
  | 103 => ⟨S64, .f32⟩
  | 104 => ⟨S64, .f32⟩
  | 105 => ⟨S64, .f32⟩
  | 106 => ⟨S64, .f32⟩
  | 107 => ⟨S64, .f32⟩
  | 108 => ⟨S64, .f32⟩
  | 109 => ⟨S1x64, .f32⟩
  | 110 => ⟨S1x64, .f32⟩
  | 111 => ⟨S100000x64, .f32⟩
  | 112 => ⟨S100000x40, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x40, .f32⟩
  | 122 => ⟨S1700000x1, .f32⟩
  | 123 => ⟨S1700000x40, .f32⟩
  | 124 => ⟨S1700000x40, .f32⟩
  | 125 => ⟨S_, .f32⟩
  | 126 => ⟨S100000x40, .f32⟩
  | 127 => ⟨S1700000x1, .i32⟩
  | _ => ⟨S100000x128, .f32⟩

abbrev hbmTy0_1 (i : Nat) : BufTy := match i % 128 with
  | 0 => ⟨S100000x40, .f32⟩
  | 1 => ⟨S_, .f32⟩
  | 2 => ⟨S40, .f32⟩
  | 3 => ⟨S1x40, .f32⟩
  | 4 => ⟨S1x40, .f32⟩
  | 5 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x40, .f32⟩
  | .local _ .vmem, ⟨25, _⟩ => ⟨S10000x40, .f32⟩
  | .local _ .vmem, ⟨26, _⟩ => ⟨S10000x40, .f32⟩
  | .local _ .vmem, ⟨27, _⟩ => ⟨S10000x40, .f32⟩
  | .local _ .vmem, ⟨28, _⟩ => ⟨S10000x40, .f32⟩
  | .local _ .vmem, ⟨29, _⟩ => ⟨S1x40, .f32⟩
  | .local _ .vmem, ⟨30, _⟩ => ⟨S1x40, .f32⟩
  | .local _ .vmem, ⟨31, _⟩ => ⟨S10000x40, .f32⟩
  | .local _ .vmem, ⟨32, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_14 : Ref sig .tc := ⟨.hbm, 113, rfl⟩
abbrev main_v79 : Ref sig .tc := ⟨.hbm, 114, rfl⟩
abbrev main_v80 : Ref sig .tc := ⟨.hbm, 115, rfl⟩
abbrev main_c_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_16 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_17 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S_S64 : S_.BroadcastsInDim S64 (![] : Fin 0 → Fin S64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S_S40 : S_.BroadcastsInDim S40 (![] : Fin 0 → Fin S40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S100000x40.size a
  hwx4_2 : ∀ i : grid4.Coords, EltTy.bits .f32 = 32 ∨ (Rect.block (s := S100000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x40.size a ≤ S100000x40.size a
  hwx5_3 : ∀ i : grid5.Coords, EltTy.bits .f32 = 32 ∨ (Rect.block (s := S100000x40) S10000x40.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v77) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S10000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S64x64, .f32⟩
  | 9 => ⟨S64, .f32⟩
  | 10 => ⟨S64, .f32⟩
  | 11 => ⟨S64, .f32⟩
  | 12 => ⟨S64, .f32⟩
  | 13 => ⟨S64, .f32⟩
  | 14 => ⟨S64x40, .f32⟩
  | 15 => ⟨S40, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S100000x64, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x64, .f32⟩
  | 66 => ⟨S1700000x1, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S64, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x1, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S64, .f32⟩
  | 123 => ⟨S64, .f32⟩
  | 124 => ⟨S64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x40, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S1700000x40, .f32⟩
  | 16 => ⟨S1700000x1, .f32⟩
  | 17 => ⟨S1700000x40, .f32⟩
  | 18 => ⟨S1700000x40, .f32⟩
  | 19 => ⟨S_, .f32⟩
  | 20 => ⟨S100000x40, .f32⟩
  | 21 => ⟨S1700000x1, .i32⟩
  | 22 => ⟨S100000x40, .f32⟩
  | 23 => ⟨S1x40, .f32⟩
  | 24 => ⟨S100000x40, .f32⟩
  | 25 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_13 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call2_cst : Ref sig .tc := ⟨.hbm, 131, rfl⟩
abbrev main_call2_v0 : Ref sig .tc := ⟨.hbm, 132, rfl⟩
abbrev main_v95 : Ref sig .tc := ⟨.hbm, 133, rfl⟩
abbrev main_v96 : Ref sig .tc := ⟨.hbm, 134, rfl⟩
abbrev main_c_14 : Ref sig .tc := ⟨.hbm, 135, rfl⟩
abbrev main_v97 : Ref sig .tc := ⟨.hbm, 136, rfl⟩
abbrev main_v98 : Ref sig .tc := ⟨.hbm, 137, rfl⟩
abbrev main_c_15 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_16 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
import proofs.«145570_j73967926772366_1_alg».proof.Proof.Gen.KernelIdeal.Frame

set_option maxRecDepth 16384

noncomputable section

/-! The idealized kernel's run with its result named: every weakly fair execution of the whole program (six pipelined
    regions among stretches of host operations) terminates, the argument arrays as launched and the result buffer holding
    what the last boundary's contents say — the contents after the last region, a fold through the program from the launch
    memory. The value of that fold is computed elsewhere; here only the run. -/

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole program: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v95) = W12 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v95 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.RunValue

end
-- ==== Proof.LibAfter.lean ====
/-
  A straight line of host operations in single-assignment form, read locally. When operation `k` of the line writes
  exactly the buffer `Ws[k]`, a buffer that no later operation writes holds, after the whole line, what it held
  after the operations up to the last one that could write it: the result of operation `k` is read from the contents
  after the first `k` operations, and an operand no later operation writes is stable.
-/
import Idealize.ShloMosaic.Lib.StableHlo.Run

noncomputable section

namespace Cert.LibAfter

open Idealize.ShloMosaic Idealize.ShloMosaic.StableHlo

variable {τ : Topo} {sig : RefSig} {Val : EltTy → Type}

/-- Operation `k` writes exactly buffer `Ws[k]`. -/
def WritesList (ops : List (HloOp τ sig Val)) (Ws : List (Ref sig .tc)) : Prop :=
  List.Forall₂ (fun op r => op.writes = {Proc.devRef (τ := τ) .tc r}) ops Ws

theorem writesList_nil : WritesList ([] : List (HloOp τ sig Val)) [] := List.Forall₂.nil

theorem writesList_cons {op : HloOp τ sig Val} {r : Ref sig .tc} {ops : List (HloOp τ sig Val)} {Ws : List (Ref sig .tc)}
    (hw : op.writes = {Proc.devRef (τ := τ) .tc r}) (h : WritesList ops Ws) : WritesList (op :: ops) (r :: Ws) :=
  List.Forall₂.cons hw h

/-- Two lines one after the other are their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A reference outside the list of written references is written by no operation of the line. -/
theorem not_mem_writes {ops : List (HloOp τ sig Val)} {Ws : List (Ref sig .tc)} (h : WritesList ops Ws)
    {a : Ref sig .tc} (ha : a ∉ Ws) : ∀ op ∈ ops, Proc.devRef (τ := τ) .tc a ∉ op.writes := by
  unfold WritesList at h
  induction h with
  | nil => intro op hop; exact absurd hop List.not_mem_nil
  | cons hw _ ih =>
    intro op hop
    rcases List.mem_cons.1 hop with rfl | hop
    · rw [hw, Finset.mem_singleton]
      intro e
      exact ha (Proc.devRef_injective _ e ▸ List.mem_cons_self)
    · exact ih (fun hm => ha (List.mem_cons_of_mem _ hm)) op hop

/-- A buffer the line does not write keeps its contents. -/
theorem after_keep (ops : List (HloOp τ sig Val)) (Ws : List (Ref sig .tc)) (h : WritesList ops Ws)
    (V : Valuation τ sig Val) (a : Ref sig .tc) (ha : a ∉ Ws) :
    after ops V (Proc.devRef .tc a) = V (Proc.devRef .tc a) :=
  after_of_forall_not_mem ops V (not_mem_writes h ha)

/-- A buffer no operation from the `k`-th on writes holds after the first `k` operations what it holds after all. -/
theorem after_take (ops : List (HloOp τ sig Val)) (Ws : List (Ref sig .tc)) (h : WritesList ops Ws) (k : ℕ)
    (V : Valuation τ sig Val) (a : Ref sig .tc) (ha : a ∉ Ws.drop k) :
    after (ops.take k) V (Proc.devRef .tc a) = after ops V (Proc.devRef .tc a) := by
  have hd : WritesList (ops.drop k) (Ws.drop k) := List.forall₂_drop k h
  have e : ops.take k ++ ops.drop k = ops := List.take_append_drop k ops
  refine Eq.trans ?_ (congrArg (fun l => after l V (Proc.devRef .tc a)) e)
  show _ = after (ops.take k ++ ops.drop k) V (Proc.devRef .tc a)
  rw [after_append]
  exact (after_keep _ _ hd _ a ha).symm

/-- A buffer no operation after the `k`-th writes holds after the line what operation `k` leaves in it, run from the
    contents after the first `k` operations. -/
theorem after_local (ops : List (HloOp τ sig Val)) (Ws : List (Ref sig .tc)) (h : WritesList ops Ws) (k : ℕ)
    (hk : k < ops.length) (V : Valuation τ sig Val) (y : Ref sig .tc) (hy : y ∉ Ws.drop (k + 1)) :
    after ops V (Proc.devRef .tc y) = (ops[k]).result (after (ops.take k) V) (Proc.devRef .tc y) := by
  have hd : WritesList (ops.drop (k + 1)) (Ws.drop (k + 1)) := List.forall₂_drop (k + 1) h
  have e : ops = ops.take k ++ (ops[k] :: ops.drop (k + 1)) := by
    rw [← List.drop_eq_getElem_cons hk, List.take_append_drop]
  refine (congrArg (fun l => after l V (Proc.devRef .tc y)) e).trans ?_
  show after (ops.take k ++ (ops[k] :: ops.drop (k + 1))) V (Proc.devRef .tc y) = _
  rw [after_append, after_cons]
  exact after_keep _ _ hd _ y hy

end Cert.LibAfter

end
-- ==== Proof.HostKeep.lean ====
import proofs.«145570_j73967926772366_1_alg».proof.Proof.Gen.KernelIdeal.Frame
import proofs.«145570_j73967926772366_1_alg».proof.Proof.LibAfter

set_option maxRecDepth 16384

noncomputable section

/-! The program is in single-assignment form: each host operation writes one buffer of its own, and each region writes only
    its output array. So a buffer's contents at a boundary of the program are what they were at the last boundary before
    which something wrote it. Here: the buffers each stretch of host operations writes, and one lemma per boundary that
    carries an unwritten buffer's contents across it. -/

namespace Cert.KernelIdeal.Keep

open Cert.KernelIdeal Cert.KernelIdeal.Gen Idealize.ShloMosaic Idealize.ShloMosaic.TcCoe Idealize.SL.Sem
open Idealize.ShloMosaic.StableHlo Cert.LibAfter

variable {F : FTy → Type} [FloatOps F]

/-- Operation by operation, a stretch writes exactly the listed buffers. -/
macro "writes_list" : tactic => `(tactic|
  repeat (first
    | exact Cert.LibAfter.writesList_nil
    | refine Cert.LibAfter.writesList_cons (by simp only [StableHlo.nullary_writes, StableHlo.unary_writes,
        StableHlo.binary_writes, StableHlo.ternary_writes, StableHlo.reshape_writes]) ?_))

/-- The buffers the stretch `hostOps0` writes, in order. -/
abbrev Ws0 : List (Ref sig .tc) := [main_v0, main_v1, main_v2, main_v3, main_v4, main_v5, main_v6, main_cst, main_v7, main_cst_0, main_v8, main_v9, main_v10, main_cst_1, main_v11, main_v12, main_v13, main_cst_2]
theorem writes0 : WritesList (hostOps0 : List (HloOp τ sig (Elt F))) Ws0 := by
  unfold hostOps0 Ws0; writes_list

/-- The buffers the stretch `hostOps0_1` writes, in order. -/
abbrev Ws0_1 : List (Ref sig .tc) := [main_call0_v0, main_call0_v1, main_v14]
theorem writes0_1 : WritesList (hostOps0_1 : List (HloOp τ sig (Elt F))) Ws0_1 := by
  unfold hostOps0_1 Ws0_1; writes_list

/-- The buffers the stretch `hostOps0_2` writes, in order. -/
abbrev Ws0_2 : List (Ref sig .tc) := [main_c, main_v15, main_v16, main_c_3, main_v17, main_v18, main_v19, main_v20, main_v21, main_c_4, main_v22, main_v23, main_c_5, main_v24, main_v25, main_v26, main_v27, main_v28, main_v29]
theorem writes0_2 : WritesList (hostOps0_2 : List (HloOp τ sig (Elt F))) Ws0_2 := by
  unfold hostOps0_2 Ws0_2; writes_list

/-- The buffers the stretch `hostOps1` writes, in order. -/
abbrev Ws1 : List (Ref sig .tc) := [main_c_6, main_v31, main_v32, main_c_7, main_v33, main_v34, main_v35, main_v36, main_v37, main_v38, main_v39, main_v40, main_cst_8, main_v41, main_v42, main_v43, main_cst_9, main_v44, main_v45, main_v46, main_v47, main_v48, main_v49, main_v50, main_v51, main_v52]
theorem writes1 : WritesList (hostOps1 : List (HloOp τ sig (Elt F))) Ws1 := by
  unfold hostOps1 Ws1; writes_list

/-- The buffers the stretch `hostOps3` writes, in order. -/
abbrev Ws3 : List (Ref sig .tc) := [main_c_10, main_v55, main_v56, main_c_11, main_v57, main_v58, main_v59, main_v60, main_v61, main_v62, main_v63, main_v64, main_cst_12, main_v65, main_v66, main_v67, main_cst_13, main_v68, main_v69, main_v70, main_v71, main_v72, main_v73, main_v74, main_v75, main_v76]
theorem writes3 : WritesList (hostOps3 : List (HloOp τ sig (Elt F))) Ws3 := by
  unfold hostOps3 Ws3; writes_list

/-- The buffers the stretch `hostOps5` writes, in order. -/
abbrev Ws5 : List (Ref sig .tc) := [main_c_14, main_v79, main_v80, main_c_15, main_v81, main_v82, main_v83, main_v84, main_v85, main_v86, main_v87, main_v88, main_cst_16, main_v89, main_v90, main_v91, main_cst_17, main_v92, main_v93, main_v94]
theorem writes5 : WritesList (hostOps5 : List (HloOp τ sig (Elt F))) Ws5 := by
  unfold hostOps5 Ws5; writes_list

variable (m : (ℓ : Loc nD τ sig) → Buf (Elt F) ℓ) (ρ : Dev nD → PrngReg) (c : Dev nD)

/-- At launch a buffer holds the launch memory. -/
theorem W0_eq (a : Ref sig .tc) : W0 m ρ c (Proc.devRef .tc a) = m ((c : Thread nD τ).loc a) := rfl

/-- A buffer the stretch `hostOps0` does not write is carried across it. -/
theorem W1_keep (a : Ref sig .tc) (h : a ∉ Ws0) :
    W1 m ρ c (Proc.devRef .tc a) = W0 m ρ c (Proc.devRef .tc a) :=
  after_keep hostOps0 Ws0 writes0 _ a h

/-- A buffer the stretch `hostOps0_1` does not write is carried across it. -/
theorem W2_keep (a : Ref sig .tc) (h : a ∉ Ws0_1) :
    W2 m ρ c (Proc.devRef .tc a) = W1 m ρ c (Proc.devRef .tc a) :=
  after_keep hostOps0_1 Ws0_1 writes0_1 _ a h

/-- A buffer the stretch `hostOps0_2` does not write is carried across it. -/
theorem W3_keep (a : Ref sig .tc) (h : a ∉ Ws0_2) :
    W3 m ρ c (Proc.devRef .tc a) = W2 m ρ c (Proc.devRef .tc a) :=
  after_keep hostOps0_2 Ws0_2 writes0_2 _ a h

/-- A buffer the stretch `hostOps1` does not write is carried across it. -/
theorem W5_keep (a : Ref sig .tc) (h : a ∉ Ws1) :
    W5 m ρ c (Proc.devRef .tc a) = W4 m ρ c (Proc.devRef .tc a) :=
  after_keep hostOps1 Ws1 writes1 _ a h

/-- A buffer the stretch `hostOps3` does not write is carried across it. -/
theorem W8_keep (a : Ref sig .tc) (h : a ∉ Ws3) :
    W8 m ρ c (Proc.devRef .tc a) = W7 m ρ c (Proc.devRef .tc a) :=
  after_keep hostOps3 Ws3 writes3 _ a h

/-- A buffer the stretch `hostOps5` does not write is carried across it. -/
theorem W11_keep (a : Ref sig .tc) (h : a ∉ Ws5) :
    W11 m ρ c (Proc.devRef .tc a) = W10 m ρ c (Proc.devRef .tc a) :=
  after_keep hostOps5 Ws5 writes5 _ a h

/-- A buffer that is none of region 0's arrays is carried across it. -/
theorem W4_keep (a : Ref sig .tc) (h : ∀ w, Pipeline.arrRef spec0 w ≠ a) :
    W4 m ρ c (Proc.devRef .tc a) = W3 m ρ c (Proc.devRef .tc a) :=
  W4_of_ne m ρ c a h

/-- A buffer that is none of region 1's arrays is carried across it. -/
theorem W6_keep (a : Ref sig .tc) (h : ∀ w, Pipeline.arrRef spec1 w ≠ a) :
    W6 m ρ c (Proc.devRef .tc a) = W5 m ρ c (Proc.devRef .tc a) :=
  W6_of_ne m ρ c a h

/-- A buffer that is none of region 2's arrays is carried across it. -/
theorem W7_keep (a : Ref sig .tc) (h : ∀ w, Pipeline.arrRef spec2 w ≠ a) :
    W7 m ρ c (Proc.devRef .tc a) = W6 m ρ c (Proc.devRef .tc a) :=
  W7_of_ne m ρ c a h

/-- A buffer that is none of region 3's arrays is carried across it. -/
theorem W9_keep (a : Ref sig .tc) (h : ∀ w, Pipeline.arrRef spec3 w ≠ a) :
    W9 m ρ c (Proc.devRef .tc a) = W8 m ρ c (Proc.devRef .tc a) :=
  W9_of_ne m ρ c a h

/-- A buffer that is none of region 4's arrays is carried across it. -/
theorem W10_keep (a : Ref sig .tc) (h : ∀ w, Pipeline.arrRef spec4 w ≠ a) :
    W10 m ρ c (Proc.devRef .tc a) = W9 m ρ c (Proc.devRef .tc a) :=
  W10_of_ne m ρ c a h

/-- A buffer that is none of region 5's arrays is carried across it. -/
theorem W12_keep (a : Ref sig .tc) (h : ∀ w, Pipeline.arrRef spec5 w ≠ a) :
    W12 m ρ c (Proc.devRef .tc a) = W11 m ρ c (Proc.devRef .tc a) :=
  W12_of_ne m ρ c a h

end Cert.KernelIdeal.Keep

end
-- ==== Proof.BridgeA.lean ====
import proofs.«145570_j73967926772366_1_alg».proof.Proof.Gen.KernelIdeal.Frame
import proofs.«145570_j73967926772366_1_alg».proof.Proof.RefRead
import proofs.«145570_j73967926772366_1_alg».proof.Proof.HostKeep

set_option maxRecDepth 16384

noncomputable section

namespace Cert.Bridge

open Cert.KernelIdeal Cert.KernelIdeal.Gen Cert.KernelIdeal.Keep
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! # Before the first region

Both programs begin with the same host operations on the edge list: the source and target index vectors with the self
loops appended, the in-degrees by an accumulating scatter of ones, their inverse square roots (zero where the degree is
zero) and the per-edge normalisation. Boundary by boundary the kernel's buffers hold the reference's stages. -/

theorem w1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

theorem w1_v6 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results
  rfl

theorem w1_v12 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  after_results
  rfl

theorem w1_v13 : W1 m ρ c (Proc.devRef .tc main_v13) = Cert.ReferenceIdeal.Read.val_main_v13 (F := Ideal) (m ((c : Thread nD τ).loc main_arg1)) := by
  show StableHlo.after hostOps0 (W0 m ρ c) (Proc.devRef .tc main_v13) = _
  after_results
  rfl

theorem w1_cst_2 : W1 m ρ c (Proc.devRef .tc main_cst_2) = Cert.ReferenceIdeal.Read.val_main_cst_2 (F := Ideal) := by
  show StableHlo.after hostOps0 (W0 m ρ c) (Proc.devRef .tc main_cst_2) = _
  after_results
  rfl

/-- The selection "the inverse square root of the degree where the degree is positive, else zero" is written through buffers
    whose declared types are the values' types; the transports along those type equations are identities. -/
theorem where_select (A : (⟨S100000, .i1⟩ : BufTy).Contents (Elt Ideal)) (B : (⟨S100000, .f32⟩ : BufTy).Contents (Elt Ideal))
    (C : (⟨S_, .f32⟩ : BufTy).Contents (Elt Ideal)) :
    ((TRef.of (sig := sig) main_v14 : TRef sig ⟨S100000, .f32⟩).toBuf (Val := Elt Ideal)
      (select ((TRef.of (sig := sig) main_v12 : TRef sig ⟨S100000, .i1⟩).ofBuf (Val := Elt Ideal) A)
        ((TRef.of (sig := sig) main_v13 : TRef sig ⟨S100000, .f32⟩).ofBuf (Val := Elt Ideal) B)
        ((TRef.of (sig := sig) main_call0_v1 : TRef sig ⟨S100000, .f32⟩).ofBuf (Val := Elt Ideal)
      ((TRef.of (sig := sig) main_call0_v1 : TRef sig ⟨S100000, .f32⟩).toBuf (Val := Elt Ideal)
        (broadcastInDim S100000 ![] bcast_S_S100000
          ((TRef.of (sig := sig) main_call0_v0 : TRef sig ⟨S_, .f32⟩).ofBuf (Val := Elt Ideal)
            ((TRef.of (sig := sig) main_call0_v0 : TRef sig ⟨S_, .f32⟩).toBuf (Val := Elt Ideal)
              (id ((TRef.of (sig := sig) main_cst_2 : TRef sig ⟨S_, .f32⟩).ofBuf (Val := Elt Ideal) C))))))))
      : (⟨S100000, .f32⟩ : BufTy).Contents (Elt Ideal))
      = select A B (broadcastInDim Cert.ReferenceIdeal.S100000 ![] Cert.ReferenceIdeal.Gen.bcast_S_S100000 (id C)) := rfl

set_option maxHeartbeats 4000000 in
theorem w2_v14 : W2 m ρ c (Proc.devRef .tc main_v14) = Cert.ReferenceIdeal.Read.val_main_v14 (F := Ideal) (m ((c : Thread nD τ).loc main_arg1)) := by
  have h12 := w1_v12 m ρ c
  have h13 := w1_v13 m ρ c
  have hc2 := w1_cst_2 m ρ c
  show StableHlo.after hostOps0_1 (W1 m ρ c) (Proc.devRef .tc main_v14) = _
  generalize W1 m ρ c = V1 at h12 h13 hc2 ⊢
  after_results_simp
  rw [h12, h13, hc2]
  unfold Cert.ReferenceIdeal.Read.val_main_v14 Cert.ReferenceIdeal.Read.val_main_call0_v1 Cert.ReferenceIdeal.Read.val_main_call0_v0
  exact where_select _ _ _

theorem w2_v3 : W2 m ρ c (Proc.devRef .tc main_v3) = Cert.ReferenceIdeal.Read.val_main_v3 (F := Ideal) (m ((c : Thread nD τ).loc main_arg1)) :=
  (W2_keep m ρ c main_v3 (by decide)).trans (w1_v3 m ρ c)
theorem w2_v6 : W2 m ρ c (Proc.devRef .tc main_v6) = Cert.ReferenceIdeal.Read.val_main_v6 (F := Ideal) (m ((c : Thread nD τ).loc main_arg1)) :=
  (W2_keep m ρ c main_v6 (by decide)).trans (w1_v6 m ρ c)

set_option maxHeartbeats 4000000 in
theorem w3_v29 : W3 m ρ c (Proc.devRef .tc main_v29) = Cert.ReferenceIdeal.Read.val_main_v29 (F := Ideal) (m ((c : Thread nD τ).loc main_arg1)) := by
  have h3 := w2_v3 m ρ c
  have h6 := w2_v6 m ρ c
  have h14 := w2_v14 m ρ c
  show StableHlo.after hostOps0_2 (W2 m ρ c) (Proc.devRef .tc main_v29) = _
  generalize W2 m ρ c = V2 at h3 h6 h14 ⊢
  after_results_simp
  rw [h3, h6, h14]
  rfl

theorem w3_v3 : W3 m ρ c (Proc.devRef .tc main_v3) = Cert.ReferenceIdeal.Read.val_main_v3 (F := Ideal) (m ((c : Thread nD τ).loc main_arg1)) :=
  (W3_keep m ρ c main_v3 (by decide)).trans (w2_v3 m ρ c)
theorem w3_v6 : W3 m ρ c (Proc.devRef .tc main_v6) = Cert.ReferenceIdeal.Read.val_main_v6 (F := Ideal) (m ((c : Thread nD τ).loc main_arg1)) :=
  (W3_keep m ρ c main_v6 (by decide)).trans (w2_v6 m ρ c)

/-- An argument array is written by nothing before the first region. -/
theorem w3_arg (a : Ref sig .tc) (h0 : a ∉ Ws0) (h1 : a ∉ Ws0_1) (h2 : a ∉ Ws0_2) :
    W3 m ρ c (Proc.devRef .tc a) = m ((c : Thread nD τ).loc a) :=
  (W3_keep m ρ c a h2).trans ((W2_keep m ρ c a h1).trans ((W1_keep m ρ c a h0).trans (W0_eq m ρ c a)))

end Cert.Bridge

end
-- ==== Proof.BridgeH.lean ====
import proofs.«145570_j73967926772366_1_alg».proof.Proof.Gen.KernelIdeal.Frame
import proofs.«145570_j73967926772366_1_alg».proof.Proof.RefRead
import proofs.«145570_j73967926772366_1_alg».proof.Proof.HostKeep
import Idealize.ShloMosaic.Lib.ValueLayout
import Idealize.ShloMosaic.Lib.Pipeline.Value
set_option maxRecDepth 16384

noncomputable section

namespace Cert.Bridge

open Cert.KernelIdeal Cert.KernelIdeal.Gen Cert.KernelIdeal.Keep
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! # The host operations between the regions

After each linear region both programs apply the same operations to its result: the rows named by the source indices are
gathered, scaled by the per-edge normalisation, and accumulated at the target indices. So once the linear region's result
is the reference's product, the aggregated array is the reference's aggregation, by the operations' own text. The kernel
also prepares, per column, the scale and the shift of its epilogue; these are read here entry by entry. Each statement takes
what the previous boundary's buffers hold as hypotheses. -/

/-- Entry `q` of a vector, and entry `(p, q)` of a matrix, as extended reals. -/
abbrev at1 {n : ℕ} (x : (⟨1, ![n]⟩ : Shape).Idx → EReal) (q : Fin n) : EReal := x (ix1 q)
abbrev at2 {a b : ℕ} (x : (⟨2, ![a, b]⟩ : Shape).Idx → EReal) (p : Fin a) (q : Fin b) : EReal := x (ix2 p q)

set_option maxHeartbeats 4000000 in
/-- Layer 1: the aggregated array is the reference's aggregation. -/
theorem agg1_of
    (hlin : W4 m ρ c (Proc.devRef .tc main_v30) = Cert.ReferenceIdeal.Read.val_main_v30 (F := Ideal) (m ((c : Thread nD τ).loc main_arg0)) (m ((c : Thread nD τ).loc main_arg2)))
    (h3 : W4 m ρ c (Proc.devRef .tc main_v3) = Cert.ReferenceIdeal.Read.val_main_v3 (F := Ideal) (m ((c : Thread nD τ).loc main_arg1)))
    (h6 : W4 m ρ c (Proc.devRef .tc main_v6) = Cert.ReferenceIdeal.Read.val_main_v6 (F := Ideal) (m ((c : Thread nD τ).loc main_arg1)))
    (h29 : W4 m ρ c (Proc.devRef .tc main_v29) = Cert.ReferenceIdeal.Read.val_main_v29 (F := Ideal) (m ((c : Thread nD τ).loc main_arg1))) :
    W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)) := by
  show StableHlo.after hostOps1 (W4 m ρ c) (Proc.devRef .tc main_v43) = _
  generalize W4 m ρ c = V at hlin h3 h6 h29 ⊢
  after_results_simp
  rw [hlin, h3, h6, h29]
  exact rfl

set_option maxHeartbeats 4000000 in
/-- Layer 1: the scale row, entry by entry: gain times the inverse square root of variance plus epsilon. -/
theorem scale1_of
    (hg : W4 m ρ c (Proc.devRef .tc main_arg4) = (m ((c : Thread nD τ).loc main_arg4))) (hv : W4 m ρ c (Proc.devRef .tc main_arg7) = (m ((c : Thread nD τ).loc main_arg7))) (q : Fin 64) :
    at2 (W5 m ρ c (Proc.devRef .tc main_v51)) (0 : Fin 1) q = at1 (m ((c : Thread nD τ).loc main_arg4)) q * Ideal.rsqrt (at1 (m ((c : Thread nD τ).loc main_arg7)) q + Ideal.ofBits .f32 0x3727C5AC#32) := by
  show at2 (StableHlo.after hostOps1 (W4 m ρ c) (Proc.devRef .tc main_v51)) (0 : Fin 1) q = _
  generalize W4 m ρ c = V at hg hv ⊢
  after_results_simp
  rw [hg, hv]
  exact (shapeCast_a_1a_apply _ _ (0 : Fin 1) q).trans rfl

set_option maxHeartbeats 4000000 in
/-- Layer 1: the shift row, entry by entry: offset plus scale times (bias minus running mean). -/
theorem shift1_of
    (hg : W4 m ρ c (Proc.devRef .tc main_arg4) = (m ((c : Thread nD τ).loc main_arg4))) (hv : W4 m ρ c (Proc.devRef .tc main_arg7) = (m ((c : Thread nD τ).loc main_arg7)))
    (hb : W4 m ρ c (Proc.devRef .tc main_arg3) = (m ((c : Thread nD τ).loc main_arg3))) (hm : W4 m ρ c (Proc.devRef .tc main_arg6) = (m ((c : Thread nD τ).loc main_arg6)))
    (hbe : W4 m ρ c (Proc.devRef .tc main_arg5) = (m ((c : Thread nD τ).loc main_arg5))) (q : Fin 64) :
    at2 (W5 m ρ c (Proc.devRef .tc main_v52)) (0 : Fin 1) q
      = at1 (m ((c : Thread nD τ).loc main_arg5)) q + (at1 (m ((c : Thread nD τ).loc main_arg4)) q * Ideal.rsqrt (at1 (m ((c : Thread nD τ).loc main_arg7)) q + Ideal.ofBits .f32 0x3727C5AC#32)) * (at1 (m ((c : Thread nD τ).loc main_arg3)) q - at1 (m ((c : Thread nD τ).loc main_arg6)) q) := by
  show at2 (StableHlo.after hostOps1 (W4 m ρ c) (Proc.devRef .tc main_v52)) (0 : Fin 1) q = _
  generalize W4 m ρ c = V at hg hv hb hm hbe ⊢
  after_results_simp
  rw [hg, hv, hb, hm, hbe]
  exact (shapeCast_a_1a_apply _ _ (0 : Fin 1) q).trans rfl

set_option maxHeartbeats 4000000 in
/-- Layer 2: the aggregated array is the reference's aggregation. -/
theorem agg2_of
    (hlin : W7 m ρ c (Proc.devRef .tc main_v54) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (h3 : W7 m ρ c (Proc.devRef .tc main_v3) = Cert.ReferenceIdeal.Read.val_main_v3 (F := Ideal) (m ((c : Thread nD τ).loc main_arg1)))
    (h6 : W7 m ρ c (Proc.devRef .tc main_v6) = Cert.ReferenceIdeal.Read.val_main_v6 (F := Ideal) (m ((c : Thread nD τ).loc main_arg1)))
    (h29 : W7 m ρ c (Proc.devRef .tc main_v29) = Cert.ReferenceIdeal.Read.val_main_v29 (F := Ideal) (m ((c : Thread nD τ).loc main_arg1))) :
    W8 m ρ c (Proc.devRef .tc main_v67) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W7 m ρ c) (Proc.devRef .tc main_v67) = _
  generalize W7 m ρ c = V at hlin h3 h6 h29 ⊢
  after_results_simp
  rw [hlin, h3, h6, h29]
  exact rfl

set_option maxHeartbeats 4000000 in
/-- Layer 2: the scale row, entry by entry: gain times the inverse square root of variance plus epsilon. -/
theorem scale2_of
    (hg : W7 m ρ c (Proc.devRef .tc main_arg10) = (m ((c : Thread nD τ).loc main_arg10))) (hv : W7 m ρ c (Proc.devRef .tc main_arg13) = (m ((c : Thread nD τ).loc main_arg13))) (q : Fin 64) :
    at2 (W8 m ρ c (Proc.devRef .tc main_v75)) (0 : Fin 1) q = at1 (m ((c : Thread nD τ).loc main_arg10)) q * Ideal.rsqrt (at1 (m ((c : Thread nD τ).loc main_arg13)) q + Ideal.ofBits .f32 0x3727C5AC#32) := by
  show at2 (StableHlo.after hostOps3 (W7 m ρ c) (Proc.devRef .tc main_v75)) (0 : Fin 1) q = _
  generalize W7 m ρ c = V at hg hv ⊢
  after_results_simp
  rw [hg, hv]
  exact (shapeCast_a_1a_apply _ _ (0 : Fin 1) q).trans rfl

set_option maxHeartbeats 4000000 in
/-- Layer 2: the shift row, entry by entry: offset plus scale times (bias minus running mean). -/
theorem shift2_of
    (hg : W7 m ρ c (Proc.devRef .tc main_arg10) = (m ((c : Thread nD τ).loc main_arg10))) (hv : W7 m ρ c (Proc.devRef .tc main_arg13) = (m ((c : Thread nD τ).loc main_arg13)))
    (hb : W7 m ρ c (Proc.devRef .tc main_arg9) = (m ((c : Thread nD τ).loc main_arg9))) (hm : W7 m ρ c (Proc.devRef .tc main_arg12) = (m ((c : Thread nD τ).loc main_arg12)))
    (hbe : W7 m ρ c (Proc.devRef .tc main_arg11) = (m ((c : Thread nD τ).loc main_arg11))) (q : Fin 64) :
    at2 (W8 m ρ c (Proc.devRef .tc main_v76)) (0 : Fin 1) q
      = at1 (m ((c : Thread nD τ).loc main_arg11)) q + (at1 (m ((c : Thread nD τ).loc main_arg10)) q * Ideal.rsqrt (at1 (m ((c : Thread nD τ).loc main_arg13)) q + Ideal.ofBits .f32 0x3727C5AC#32)) * (at1 (m ((c : Thread nD τ).loc main_arg9)) q - at1 (m ((c : Thread nD τ).loc main_arg12)) q) := by
  show at2 (StableHlo.after hostOps3 (W7 m ρ c) (Proc.devRef .tc main_v76)) (0 : Fin 1) q = _
  generalize W7 m ρ c = V at hg hv hb hm hbe ⊢
  after_results_simp
  rw [hg, hv, hb, hm, hbe]
  exact (shapeCast_a_1a_apply _ _ (0 : Fin 1) q).trans rfl

set_option maxHeartbeats 4000000 in
/-- Layer 3: the aggregated array is the reference's aggregation. -/
theorem agg3_of
    (hlin : W10 m ρ c (Proc.devRef .tc main_v78) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (h3 : W10 m ρ c (Proc.devRef .tc main_v3) = Cert.ReferenceIdeal.Read.val_main_v3 (F := Ideal) (m ((c : Thread nD τ).loc main_arg1)))
    (h6 : W10 m ρ c (Proc.devRef .tc main_v6) = Cert.ReferenceIdeal.Read.val_main_v6 (F := Ideal) (m ((c : Thread nD τ).loc main_arg1)))
    (h29 : W10 m ρ c (Proc.devRef .tc main_v29) = Cert.ReferenceIdeal.Read.val_main_v29 (F := Ideal) (m ((c : Thread nD τ).loc main_arg1))) :
    W11 m ρ c (Proc.devRef .tc main_v91) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after hostOps5 (W10 m ρ c) (Proc.devRef .tc main_v91) = _
  generalize W10 m ρ c = V at hlin h3 h6 h29 ⊢
  after_results_simp
  rw [hlin, h3, h6, h29]
  exact rfl

set_option maxHeartbeats 4000000 in
/-- Layer 3 has no normalisation: its scale row is the word of one. -/
theorem scale3_of (q : Fin 40) :
    at2 (W11 m ρ c (Proc.devRef .tc main_v93)) (0 : Fin 1) q = Ideal.ofBits .f32 0x3F800000#32 := by
  show at2 (StableHlo.after hostOps5 (W10 m ρ c) (Proc.devRef .tc main_v93)) (0 : Fin 1) q = _
  generalize W10 m ρ c = V
  after_results_simp
  exact (shapeCast_a_1a_apply _ _ (0 : Fin 1) q).trans rfl

set_option maxHeartbeats 4000000 in
/-- Layer 3: the shift row is the bias. -/
theorem shift3_of (hb : W10 m ρ c (Proc.devRef .tc main_arg15) = (m ((c : Thread nD τ).loc main_arg15))) (q : Fin 40) :
    at2 (W11 m ρ c (Proc.devRef .tc main_v94)) (0 : Fin 1) q = at1 (m ((c : Thread nD τ).loc main_arg15)) q := by
  show at2 (StableHlo.after hostOps5 (W10 m ρ c) (Proc.devRef .tc main_v94)) (0 : Fin 1) q = _
  generalize W10 m ρ c = V at hb ⊢
  after_results_simp
  rw [hb]
  exact (shapeCast_a_1a_apply _ _ (0 : Fin 1) q).trans rfl

end Cert.Bridge

end
-- ==== Proof.LinRegions.lean ====
import proofs.«145570_j73967926772366_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinValue

open Cert.KernelIdeal Cert.KernelIdeal.Gen Idealize.ShloMosaic Idealize.ShloMosaic.TcCoe Idealize.SL.Sem
open Idealize.ShloMosaic.ValueIdx

/-! # The three linear layers, read off the frame

Each linear region runs ten grid points; point `t` multiplies rows `10000 t … 10000 t + 9999` of its input array by the
whole weight array and writes the product back as the same rows of its output array. On the extended reals the two
roundings to bf16 are the identity and the accumulator starts at zero, so a block's entry `(p, q)` is the plain sum
`∑ k, x p k * w k q`. Every written block is therefore the restriction of ONE function of the two arrays, and the ten row
blocks cover the output array (row `r` lies in block `r / 10000`), so after the last point the output array is that
function: entry `(p, q)` is the inner product of row `p` of the input with column `q` of the weight. -/

-- The buffer contents when a region is entered: a parameter, as in the frame.
variable (V : (c : Dev nD) → (b : Ref sig .tc) → Buf (Elt Ideal) ((c : Thread nD τ).loc b))

/-- The zero offsets of a whole-buffer access, spelt as a constant function. -/
private theorem hz : (![0, 0] : Fin 2 → Nat) = fun _ => 0 := funext fun a => by fin_cases a <;> rfl

/-! ## Region 0: a [10000,128] row block times the [128,64] weight -/

private theorem lhs0_0 (i : S10000x64.Idx) (r : dot_S10000x128_S128x64_S10000x64_1_0_0_1_n_n.contr.Idx) :
    (dot_S10000x128_S128x64_S10000x64_1_0_0_1_n_n.lhsIdx i r 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
private theorem lhs0_1 (i : S10000x64.Idx) (r : dot_S10000x128_S128x64_S10000x64_1_0_0_1_n_n.contr.Idx) :
    (dot_S10000x128_S128x64_S10000x64_1_0_0_1_n_n.lhsIdx i r 1).val = (r ⟨0, by decide⟩).val :=
  dot_S10000x128_S128x64_S10000x64_1_0_0_1_n_n.lhsIdx_val_of_single rfl i r
private theorem rhs0_0 (i : S10000x64.Idx) (r : dot_S10000x128_S128x64_S10000x64_1_0_0_1_n_n.contr.Idx) :
    (dot_S10000x128_S128x64_S10000x64_1_0_0_1_n_n.rhsIdx i r 0).val = (r ⟨0, by decide⟩).val :=
  dot_S10000x128_S128x64_S10000x64_1_0_0_1_n_n.rhsIdx_val_of_single rfl i r
private theorem rhs0_1 (i : S10000x64.Idx) (r : dot_S10000x128_S128x64_S10000x64_1_0_0_1_n_n.contr.Idx) :
    (dot_S10000x128_S128x64_S10000x64_1_0_0_1_n_n.rhsIdx i r 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's result at row `p`, column `q` of its block: the two roundings to bf16 are the identity on the
    extended reals and the accumulator is the zero splat, so the block product is the plain sum over the contraction index. -/
private theorem pay0_apply (x0 : Vec Ideal S10000x128 .f32) (x1 : Vec Ideal S128x64 .f32) (p : Fin 10000) (q : Fin 64) :
    (k0_pay1 (F := Ideal) x0 x1 : S10000x64.Idx → EReal) (ix2 p q)
      = ∑ k : Fin 128, (x0 : S10000x128.Idx → EReal) (ix2 p k) * (x1 : S128x64.Idx → EReal) (ix2 k q) := by
  unfold k0_pay1
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs0_0 _ _).trans hk
    | ⟨1, _⟩ => exact rhs0_1 _ _)
  rw [truncf_apply, truncf_apply, el, er]

/-- The whole-array function of region 0: entry `(P, q)` is row `P` of `a` against column `q` of `b`. -/
private def G0 (a : S100000x128.Idx → EReal) (b : S128x64.Idx → EReal) : S100000x64.Idx → EReal :=
  fun i => ∑ k : Fin 128, a (ix2 (⟨(i 0).val, idx2_lt0 i⟩ : Fin 100000) k) * b (ix2 k (⟨(i 1).val, idx2_lt1 i⟩ : Fin 64))

/-- The three index maps over the ten grid points: the input's and the output's row blocks are block `t` of their arrays,
    their one column block and the weight's one block are block zero. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the input's block at point `t` is row `10000 t + p` of the input array. -/
private theorem iblk0_0_apply (c : Dev nD) (t : Fin cfg0.N) (p : Fin 10000) (k : Fin 128) (P : Fin 100000)
    (hP : P.val = t.val * 10000 + p.val) :
    (iblk0 (F := Ideal) V c 0 t : S10000x128.Idx → EReal) (ix2 p k)
      = (V c (Pipeline.arrRef spec0 0) : S100000x128.Idx → EReal) (ix2 P k) := by
  obtain ⟨e0, e1, -⟩ := idx_facts0 t
  unfold iblk0
  rw [View.read_apply]
  show (V c (Pipeline.arrRef spec0 0) : S100000x128.Idx → EReal) (((cfg0.win 0).blk t).view.emb (ix2 p k)) = _
  refine congrArg _ (funext fun a => Fin.ext ?_)
  match a with
  | ⟨0, _⟩ => show win0_0.index t (0 : Fin 2) * 10000 + 1 * p.val = P.val; omega
  | ⟨1, _⟩ => show win0_0.index t (1 : Fin 2) * 128 + 1 * k.val = k.val; omega

/-- The weight's block at every point is the whole weight array. -/
private theorem iblk0_1_apply (c : Dev nD) (t : Fin cfg0.N) (k : Fin 128) (q : Fin 64) :
    (iblk0 (F := Ideal) V c 1 t : S128x64.Idx → EReal) (ix2 k q)
      = (V c (Pipeline.arrRef spec0 1) : S128x64.Idx → EReal) (ix2 k q) := by
  obtain ⟨-, -, e2, e3, -⟩ := idx_facts0 t
  unfold iblk0
  rw [View.read_apply]
  show (V c (Pipeline.arrRef spec0 1) : S128x64.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- The body's result on blocks that are rows `10000 n …` of `a` and all of `b`, at block index `j`, is `G0 a b` at the
    array index `i` that `j` sits at. -/
private theorem pay0_G (x0 : Vec Ideal S10000x128 .f32) (x1 : Vec Ideal S128x64 .f32)
    (a : S100000x128.Idx → EReal) (b : S128x64.Idx → EReal) (n : Nat)
    (h0 : ∀ (p : Fin 10000) (k : Fin 128) (P : Fin 100000), P.val = n * 10000 + p.val →
      (x0 : S10000x128.Idx → EReal) (ix2 p k) = a (ix2 P k))
    (h1 : ∀ (k : Fin 128) (q : Fin 64), (x1 : S128x64.Idx → EReal) (ix2 k q) = b (ix2 k q))
    (j : S10000x64.Idx) (i : S100000x64.Idx) (hi0 : (i 0).val = n * 10000 + (j 0).val) (hi1 : (i 1).val = (j 1).val) :
    (k0_pay1 (F := Ideal) x0 x1 : S10000x64.Idx → EReal) j = G0 a b i := by
  obtain ⟨p, q, rfl⟩ : ∃ (p : Fin 10000) (q : Fin 64), j = ix2 p q := ⟨j 0, j 1, eq_ix2 j⟩
  rw [pay0_apply]
  unfold G0
  refine Finset.sum_congr rfl fun k _ => ?_
  rw [h0 p k ⟨(i 0).val, idx2_lt0 i⟩ hi0, h1 k q]
  exact congrArg (fun r => a (ix2 (⟨(i 0).val, idx2_lt0 i⟩ : Fin 100000) k) * b (ix2 k r)) (Fin.ext hi1.symm)

/-- What point `t` writes back is block `t` of `G0` of the input and weight arrays as the region finds them. -/
private theorem flushed0_eq (c : Dev nD) (t : Fin cfg0.N) :
    (dat0 (F := Ideal) V c).flushed 2 t
      = ((cfg0.win 2).blk t).view.read (Elt Ideal) (G0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x64) hz]
  obtain ⟨-, -, -, -, e4, e5⟩ := idx_facts0 t
  funext j
  rw [View.read_apply]
  exact pay0_G (iblk0 (F := Ideal) V c 0 t) (iblk0 (F := Ideal) V c 1 t) (V c (Pipeline.arrRef spec0 0)) (V c (Pipeline.arrRef spec0 1)) t.val
    (fun p k P hP => iblk0_0_apply V c t p k P hP) (fun k q => iblk0_1_apply V c t k q) j (((cfg0.win 2).blk t).view.emb j)
    (by show win0_2.index t (0 : Fin 2) * 10000 + 1 * (j 0).val = t.val * 10000 + (j 0).val; omega)
    (by show win0_2.index t (1 : Fin 2) * 64 + 1 * (j 1).val = (j 1).val; omega)

/-- An index of the output array is in point `t`'s block iff each coordinate is in the block's range on its axis. -/
private theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the output array is written back by point `r / 10000`. -/
private theorem cover0 (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0 (a linear layer): after all ten grid points the output array holds, at row `p` and column `q`, the inner
    product of row `p` of the input array with column `q` of the weight array, as the region found them. -/
theorem lin0_apply (c : Dev nD) (p : Fin 100000) (q : Fin 64) :
    ((dat0 (F := Ideal) V c).arrAt 2 cfg0.N : S100000x64.Idx → EReal) (ix2 p q)
      = ∑ k : Fin 128, HMul.hMul (α := EReal) (β := EReal) (γ := EReal)
          ((V c (Pipeline.arrRef spec0 0) : S100000x128.Idx → EReal) (ix2 p k))
          ((V c (Pipeline.arrRef spec0 1) : S128x64.Idx → EReal) (ix2 k q)) := by
  have h := (dat0 (F := Ideal) V c).arrAt_eq_of_cover 2 (G0 (V c (Pipeline.arrRef spec0 0)) (V c (Pipeline.arrRef spec0 1)))
    (fun t _ => flushed0_eq V c t) cover0
  rw [h]
  rfl

/-! ## Region 2: a [10000,64] row block times the [64,64] weight -/

private theorem lhs2_0 (i : S10000x64.Idx) (r : dot_S10000x64_S64x64_S10000x64_1_0_0_1_n_n.contr.Idx) :
    (dot_S10000x64_S64x64_S10000x64_1_0_0_1_n_n.lhsIdx i r 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem lhs2_1 (i : S10000x64.Idx) (r : dot_S10000x64_S64x64_S10000x64_1_0_0_1_n_n.contr.Idx) :
    (dot_S10000x64_S64x64_S10000x64_1_0_0_1_n_n.lhsIdx i r 1).val = (r ⟨0, by decide⟩).val :=
  dot_S10000x64_S64x64_S10000x64_1_0_0_1_n_n.lhsIdx_val_of_single rfl i r
private theorem rhs2_0 (i : S10000x64.Idx) (r : dot_S10000x64_S64x64_S10000x64_1_0_0_1_n_n.contr.Idx) :
    (dot_S10000x64_S64x64_S10000x64_1_0_0_1_n_n.rhsIdx i r 0).val = (r ⟨0, by decide⟩).val :=
  dot_S10000x64_S64x64_S10000x64_1_0_0_1_n_n.rhsIdx_val_of_single rfl i r
private theorem rhs2_1 (i : S10000x64.Idx) (r : dot_S10000x64_S64x64_S10000x64_1_0_0_1_n_n.contr.Idx) :
    (dot_S10000x64_S64x64_S10000x64_1_0_0_1_n_n.rhsIdx i r 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's result at row `p`, column `q` of its block: a cast of the block's shape to itself is the identity, the two roundings to bf16 are the identity on the
    extended reals and the accumulator is the zero splat, so the block product is the plain sum over the contraction index. -/
private theorem pay2_apply (x0 : Vec Ideal S10000x64 .f32) (x1 : Vec Ideal S64x64 .f32) (p : Fin 10000) (q : Fin 64) :
    (k2_pay1 (F := Ideal) x0 x1 : S10000x64.Idx → EReal) (ix2 p q)
      = ∑ k : Fin 64, (x0 : S10000x64.Idx → EReal) (ix2 p k) * (x1 : S64x64.Idx → EReal) (ix2 k q) := by
  unfold k2_pay1
  simp only [matmul, shapeCast_self]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs2_0 _ _).trans hk
    | ⟨1, _⟩ => exact rhs2_1 _ _)
  rw [truncf_apply, truncf_apply, el, er]

/-- The whole-array function of region 2: entry `(P, q)` is row `P` of `a` against column `q` of `b`. -/
private def G2 (a : S100000x64.Idx → EReal) (b : S64x64.Idx → EReal) : S100000x64.Idx → EReal :=
  fun i => ∑ k : Fin 64, a (ix2 (⟨(i 0).val, idx2_lt0 i⟩ : Fin 100000) k) * b (ix2 k (⟨(i 1).val, idx2_lt1 i⟩ : Fin 64))

/-- The three index maps over the ten grid points: the input's and the output's row blocks are block `t` of their arrays,
    their one column block and the weight's one block are block zero. -/
private theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the input's block at point `t` is row `10000 t + p` of the input array. -/
private theorem iblk2_0_apply (c : Dev nD) (t : Fin cfg2.N) (p : Fin 10000) (k : Fin 64) (P : Fin 100000)
    (hP : P.val = t.val * 10000 + p.val) :
    (iblk2 (F := Ideal) V c 0 t : S10000x64.Idx → EReal) (ix2 p k)
      = (V c (Pipeline.arrRef spec2 0) : S100000x64.Idx → EReal) (ix2 P k) := by
  obtain ⟨e0, e1, -⟩ := idx_facts2 t
  unfold iblk2
  rw [View.read_apply]
  show (V c (Pipeline.arrRef spec2 0) : S100000x64.Idx → EReal) (((cfg2.win 0).blk t).view.emb (ix2 p k)) = _
  refine congrArg _ (funext fun a => Fin.ext ?_)
  match a with
  | ⟨0, _⟩ => show win2_0.index t (0 : Fin 2) * 10000 + 1 * p.val = P.val; omega
  | ⟨1, _⟩ => show win2_0.index t (1 : Fin 2) * 64 + 1 * k.val = k.val; omega

/-- The weight's block at every point is the whole weight array. -/
private theorem iblk2_1_apply (c : Dev nD) (t : Fin cfg2.N) (k : Fin 64) (q : Fin 64) :
    (iblk2 (F := Ideal) V c 1 t : S64x64.Idx → EReal) (ix2 k q)
      = (V c (Pipeline.arrRef spec2 1) : S64x64.Idx → EReal) (ix2 k q) := by
  obtain ⟨-, -, e2, e3, -⟩ := idx_facts2 t
  unfold iblk2
  rw [View.read_apply]
  show (V c (Pipeline.arrRef spec2 1) : S64x64.Idx → EReal) (((cfg2.win 1).blk t).view.emb (ix2 k q)) = _
  refine congrArg _ (funext fun a => Fin.ext ?_)
  match a with
  | ⟨0, _⟩ => show win2_1.index t (0 : Fin 2) * 64 + 1 * k.val = k.val; omega
  | ⟨1, _⟩ => show win2_1.index t (1 : Fin 2) * 64 + 1 * q.val = q.val; omega

/-- The body's result on blocks that are rows `10000 n …` of `a` and all of `b`, at block index `j`, is `G2 a b` at the
    array index `i` that `j` sits at. -/
private theorem pay2_G (x0 : Vec Ideal S10000x64 .f32) (x1 : Vec Ideal S64x64 .f32)
    (a : S100000x64.Idx → EReal) (b : S64x64.Idx → EReal) (n : Nat)
    (h0 : ∀ (p : Fin 10000) (k : Fin 64) (P : Fin 100000), P.val = n * 10000 + p.val →
      (x0 : S10000x64.Idx → EReal) (ix2 p k) = a (ix2 P k))
    (h1 : ∀ (k : Fin 64) (q : Fin 64), (x1 : S64x64.Idx → EReal) (ix2 k q) = b (ix2 k q))
    (j : S10000x64.Idx) (i : S100000x64.Idx) (hi0 : (i 0).val = n * 10000 + (j 0).val) (hi1 : (i 1).val = (j 1).val) :
    (k2_pay1 (F := Ideal) x0 x1 : S10000x64.Idx → EReal) j = G2 a b i := by
  obtain ⟨p, q, rfl⟩ : ∃ (p : Fin 10000) (q : Fin 64), j = ix2 p q := ⟨j 0, j 1, eq_ix2 j⟩
  rw [pay2_apply]
  unfold G2
  refine Finset.sum_congr rfl fun k _ => ?_
  rw [h0 p k ⟨(i 0).val, idx2_lt0 i⟩ hi0, h1 k q]
  exact congrArg (fun r => a (ix2 (⟨(i 0).val, idx2_lt0 i⟩ : Fin 100000) k) * b (ix2 k r)) (Fin.ext hi1.symm)

/-- What point `t` writes back is block `t` of `G2` of the input and weight arrays as the region finds them. -/
private theorem flushed2_eq (c : Dev nD) (t : Fin cfg2.N) :
    (dat2 (F := Ideal) V c).flushed 2 t
      = ((cfg2.win 2).blk t).view.read (Elt Ideal) (G2 (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz]
  simp only [View.ld_unit_zero (S := S10000x64) hz, View.ld_unit_zero (S := S64x64) hz]
  obtain ⟨-, -, -, -, e4, e5⟩ := idx_facts2 t
  funext j
  rw [View.read_apply]
  exact pay2_G (iblk2 (F := Ideal) V c 0 t) (iblk2 (F := Ideal) V c 1 t) (V c (Pipeline.arrRef spec2 0)) (V c (Pipeline.arrRef spec2 1)) t.val
    (fun p k P hP => iblk2_0_apply V c t p k P hP) (fun k q => iblk2_1_apply V c t k q) j (((cfg2.win 2).blk t).view.emb j)
    (by show win2_2.index t (0 : Fin 2) * 10000 + 1 * (j 0).val = t.val * 10000 + (j 0).val; omega)
    (by show win2_2.index t (1 : Fin 2) * 64 + 1 * (j 1).val = (j 1).val; omega)

/-- An index of the output array is in point `t`'s block iff each coordinate is in the block's range on its axis. -/
private theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v54).slice (win2_2.rect t)).set ↔ _
  rw [View.set_slice_whole, Rect.mem_set_unit]
  exact Iff.rfl

/-- Row `r` of the output array is written back by point `r / 10000`. -/
private theorem cover2 (i : S100000x64.Idx) : ∃ t : Fin cfg2.N, (cfg2.win 2).flush t = true ∧ i ∈ ((cfg2.win 2).blk t).view.set := by
  have hi0 : (i 0).val < 100000 := idx2_lt0 i
  have hi1 : (i 1).val < 64 := idx2_lt1 i
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- Region 2 (a linear layer): after all ten grid points the output array holds, at row `p` and column `q`, the inner
    product of row `p` of the input array with column `q` of the weight array, as the region found them. -/
theorem lin2_apply (c : Dev nD) (p : Fin 100000) (q : Fin 64) :
    ((dat2 (F := Ideal) V c).arrAt 2 cfg2.N : S100000x64.Idx → EReal) (ix2 p q)
      = ∑ k : Fin 64, HMul.hMul (α := EReal) (β := EReal) (γ := EReal)
          ((V c (Pipeline.arrRef spec2 0) : S100000x64.Idx → EReal) (ix2 p k))
          ((V c (Pipeline.arrRef spec2 1) : S64x64.Idx → EReal) (ix2 k q)) := by
  have h := (dat2 (F := Ideal) V c).arrAt_eq_of_cover 2 (G2 (V c (Pipeline.arrRef spec2 0)) (V c (Pipeline.arrRef spec2 1)))
    (fun t _ => flushed2_eq V c t) cover2
  rw [h]
  rfl

/-! ## Region 4: a [10000,64] row block times the [64,40] weight -/

private theorem lhs4_0 (i : S10000x40.Idx) (r : dot_S10000x64_S64x40_S10000x40_1_0_0_1_n_n.contr.Idx) :
    (dot_S10000x64_S64x40_S10000x40_1_0_0_1_n_n.lhsIdx i r 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
private theorem lhs4_1 (i : S10000x40.Idx) (r : dot_S10000x64_S64x40_S10000x40_1_0_0_1_n_n.contr.Idx) :
    (dot_S10000x64_S64x40_S10000x40_1_0_0_1_n_n.lhsIdx i r 1).val = (r ⟨0, by decide⟩).val :=
  dot_S10000x64_S64x40_S10000x40_1_0_0_1_n_n.lhsIdx_val_of_single rfl i r
private theorem rhs4_0 (i : S10000x40.Idx) (r : dot_S10000x64_S64x40_S10000x40_1_0_0_1_n_n.contr.Idx) :
    (dot_S10000x64_S64x40_S10000x40_1_0_0_1_n_n.rhsIdx i r 0).val = (r ⟨0, by decide⟩).val :=
  dot_S10000x64_S64x40_S10000x40_1_0_0_1_n_n.rhsIdx_val_of_single rfl i r
private theorem rhs4_1 (i : S10000x40.Idx) (r : dot_S10000x64_S64x40_S10000x40_1_0_0_1_n_n.contr.Idx) :
    (dot_S10000x64_S64x40_S10000x40_1_0_0_1_n_n.rhsIdx i r 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The body's result at row `p`, column `q` of its block: a cast of the block's shape to itself is the identity, the two roundings to bf16 are the identity on the
    extended reals and the accumulator is the zero splat, so the block product is the plain sum over the contraction index. -/
private theorem pay4_apply (x0 : Vec Ideal S10000x64 .f32) (x1 : Vec Ideal S64x40 .f32) (p : Fin 10000) (q : Fin 40) :
    (k4_pay1 (F := Ideal) x0 x1 : S10000x40.Idx → EReal) (ix2 p q)
      = ∑ k : Fin 64, (x0 : S10000x64.Idx → EReal) (ix2 p k) * (x1 : S64x40.Idx → EReal) (ix2 k q) := by
  unfold k4_pay1
  simp only [matmul, shapeCast_self]
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k := funext fun a => Fin.ext (by
    match a with
    | ⟨0, _⟩ => exact lhs4_0 _ _
    | ⟨1, _⟩ => exact (lhs4_1 _ _).trans hk)
  have er : dot_S10000x64_S64x40_S10000x40_1_0_0_1_n_n.rhsIdx (ix2 p q) ((contrEquiv1 dot_S10000x64_S64x40_S10000x40_1_0_0_1_n_n 64 rfl rfl).symm k) = ix2 k q := funext fun a => Fin.ext (by
    match a with
    | ⟨0, _⟩ => exact (rhs4_0 _ _).trans hk
    | ⟨1, _⟩ => exact rhs4_1 _ _)
  rw [truncf_apply, truncf_apply, el, er]

/-- The whole-array function of region 4: entry `(P, q)` is row `P` of `a` against column `q` of `b`. -/
private def G4 (a : S100000x64.Idx → EReal) (b : S64x40.Idx → EReal) : S100000x40.Idx → EReal :=
  fun i => ∑ k : Fin 64, a (ix2 (⟨(i 0).val, idx2_lt0 i⟩ : Fin 100000) k) * b (ix2 k (⟨(i 1).val, idx2_lt1 i⟩ : Fin 40))

/-- The three index maps over the ten grid points: the input's and the output's row blocks are block `t` of their arrays,
    their one column block and the weight's one block are block zero. -/
private theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `p` of the input's block at point `t` is row `10000 t + p` of the input array. -/
private theorem iblk4_0_apply (c : Dev nD) (t : Fin cfg4.N) (p : Fin 10000) (k : Fin 64) (P : Fin 100000)
    (hP : P.val = t.val * 10000 + p.val) :
    (iblk4 (F := Ideal) V c 0 t : S10000x64.Idx → EReal) (ix2 p k)
      = (V c (Pipeline.arrRef spec4 0) : S100000x64.Idx → EReal) (ix2 P k) := by
  obtain ⟨e0, e1, -⟩ := idx_facts4 t
  unfold iblk4
  rw [View.read_apply]
  show (V c (Pipeline.arrRef spec4 0) : S100000x64.Idx → EReal) (((cfg4.win 0).blk t).view.emb (ix2 p k)) = _
  refine congrArg _ (funext fun a => Fin.ext ?_)
  match a with
  | ⟨0, _⟩ => show win4_0.index t (0 : Fin 2) * 10000 + 1 * p.val = P.val; omega
  | ⟨1, _⟩ => show win4_0.index t (1 : Fin 2) * 64 + 1 * k.val = k.val; omega

/-- The weight's block at every point is the whole weight array. -/
private theorem iblk4_1_apply (c : Dev nD) (t : Fin cfg4.N) (k : Fin 64) (q : Fin 40) :
    (iblk4 (F := Ideal) V c 1 t : S64x40.Idx → EReal) (ix2 k q)
      = (V c (Pipeline.arrRef spec4 1) : S64x40.Idx → EReal) (ix2 k q) := by
  obtain ⟨-, -, e2, e3, -⟩ := idx_facts4 t
  unfold iblk4
  rw [View.read_apply]
  show (V c (Pipeline.arrRef spec4 1) : S64x40.Idx → EReal) (((cfg4.win 1).blk t).view.emb (ix2 k q)) = _
  refine congrArg _ (funext fun a => Fin.ext ?_)
  match a with
  | ⟨0, _⟩ => show win4_1.index t (0 : Fin 2) * 64 + 1 * k.val = k.val; omega
  | ⟨1, _⟩ => show win4_1.index t (1 : Fin 2) * 40 + 1 * q.val = q.val; omega

/-- The body's result on blocks that are rows `10000 n …` of `a` and all of `b`, at block index `j`, is `G4 a b` at the
    array index `i` that `j` sits at. -/
private theorem pay4_G (x0 : Vec Ideal S10000x64 .f32) (x1 : Vec Ideal S64x40 .f32)
    (a : S100000x64.Idx → EReal) (b : S64x40.Idx → EReal) (n : Nat)
    (h0 : ∀ (p : Fin 10000) (k : Fin 64) (P : Fin 100000), P.val = n * 10000 + p.val →
      (x0 : S10000x64.Idx → EReal) (ix2 p k) = a (ix2 P k))
    (h1 : ∀ (k : Fin 64) (q : Fin 40), (x1 : S64x40.Idx → EReal) (ix2 k q) = b (ix2 k q))
    (j : S10000x40.Idx) (i : S100000x40.Idx) (hi0 : (i 0).val = n * 10000 + (j 0).val) (hi1 : (i 1).val = (j 1).val) :
    (k4_pay1 (F := Ideal) x0 x1 : S10000x40.Idx → EReal) j = G4 a b i := by
  obtain ⟨p, q, rfl⟩ : ∃ (p : Fin 10000) (q : Fin 40), j = ix2 p q := ⟨j 0, j 1, eq_ix2 j⟩
  rw [pay4_apply]
  unfold G4
  refine Finset.sum_congr rfl fun k _ => ?_
  rw [h0 p k ⟨(i 0).val, idx2_lt0 i⟩ hi0, h1 k q]
  exact congrArg (fun r => a (ix2 (⟨(i 0).val, idx2_lt0 i⟩ : Fin 100000) k) * b (ix2 k r)) (Fin.ext hi1.symm)

/-- What point `t` writes back is block `t` of `G4` of the input and weight arrays as the region finds them. -/
private theorem flushed4_eq (c : Dev nD) (t : Fin cfg4.N) :
    (dat4 (F := Ideal) V c).flushed 2 t
      = ((cfg4.win 2).blk t).view.read (Elt Ideal) (G4 (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero hz]
  simp only [View.ld_unit_zero (S := S10000x64) hz, View.ld_unit_zero (S := S64x40) hz]
  obtain ⟨-, -, -, -, e4, e5⟩ := idx_facts4 t
  funext j
  rw [View.read_apply]
  exact pay4_G (iblk4 (F := Ideal) V c 0 t) (iblk4 (F := Ideal) V c 1 t) (V c (Pipeline.arrRef spec4 0)) (V c (Pipeline.arrRef spec4 1)) t.val
    (fun p k P hP => iblk4_0_apply V c t p k P hP) (fun k q => iblk4_1_apply V c t k q) j (((cfg4.win 2).blk t).view.emb j)
    (by show win4_2.index t (0 : Fin 2) * 10000 + 1 * (j 0).val = t.val * 10000 + (j 0).val; omega)
    (by show win4_2.index t (1 : Fin 2) * 40 + 1 * (j 1).val = (j 1).val; omega)

/-- An index of the output array is in point `t`'s block iff each coordinate is in the block's range on its axis. -/
private theorem mem_blk4 (t : Fin cfg4.N) (i : S100000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v78).slice (win4_2.rect t)).set ↔ _
  rw [View.set_slice_whole, Rect.mem_set_unit]
  exact Iff.rfl

/-- Row `r` of the output array is written back by point `r / 10000`. -/
private theorem cover4 (i : S100000x40.Idx) : ∃ t : Fin cfg4.N, (cfg4.win 2).flush t = true ∧ i ∈ ((cfg4.win 2).blk t).view.set := by
  have hi0 : (i 0).val < 100000 := idx2_lt0 i
  have hi1 : (i 1).val < 40 := idx2_lt1 i
  have hN : cfg4.N = 10 := N_4
  obtain ⟨t, ht⟩ : ∃ t : Fin cfg4.N, t.val = (i 0).val / 10000 := ⟨⟨(i 0).val / 10000, by rw [hN]; omega⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 40 ≤ (i 1).val ∧ (i 1).val < win4_2.index t (1 : Fin 2) * 40 + 40; omega

/-- Region 4 (a linear layer): after all ten grid points the output array holds, at row `p` and column `q`, the inner
    product of row `p` of the input array with column `q` of the weight array, as the region found them. -/
theorem lin4_apply (c : Dev nD) (p : Fin 100000) (q : Fin 40) :
    ((dat4 (F := Ideal) V c).arrAt 2 cfg4.N : S100000x40.Idx → EReal) (ix2 p q)
      = ∑ k : Fin 64, HMul.hMul (α := EReal) (β := EReal) (γ := EReal)
          ((V c (Pipeline.arrRef spec4 0) : S100000x64.Idx → EReal) (ix2 p k))
          ((V c (Pipeline.arrRef spec4 1) : S64x40.Idx → EReal) (ix2 k q)) := by
  have h := (dat4 (F := Ideal) V c).arrAt_eq_of_cover 2 (G4 (V c (Pipeline.arrRef spec4 0)) (V c (Pipeline.arrRef spec4 1)))
    (fun t _ => flushed4_eq V c t) cover4
  rw [h]
  rfl

end Cert.KernelIdeal.LinValue

end
-- ==== Proof.EpiRegions.lean ====
import proofs.«145570_j73967926772366_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EpiValue

open Cert.KernelIdeal Cert.KernelIdeal.Gen Idealize.ShloMosaic Idealize.ShloMosaic.TcCoe Idealize.SL.Sem
open Idealize.ShloMosaic.ValueIdx

-- The buffer contents when a region is entered: a parameter, as in the frame.
variable (V : (c : Dev nD) → (b : Ref sig .tc) → Buf (Elt Ideal) ((c : Thread nD τ).loc b))

/-- The zero offsets of a whole-buffer access, however spelt. -/
private theorem hz : (![0, 0] : Fin 2 → Nat) = fun _ => 0 := funext fun a => by fin_cases a <;> rfl

/-! ## The two epilogues as functions of whole arrays -/

/-- The clamped epilogue at 64 columns, index by index: the entry times the scale row's entry of its column plus the
    shift row's, clamped below at zero. -/
def reluAffine64 (X : S100000x64.Idx → EReal) (s b : S1x64.Idx → EReal) : S100000x64.Idx → EReal :=
  fun i => max (X i * s (ix2 (0 : Fin 1) (i 1)) + b (ix2 (0 : Fin 1) (i 1))) 0

/-- The clamped epilogue of three arrays each read where the output's element sits is the function of whole arrays there. -/
private theorem reluAffine64_at (X : S100000x64.Idx → EReal) (s b : S1x64.Idx → EReal) (i3 i0 : S100000x64.Idx) (i1 i2 : S1x64.Idx)
    (h0 : i0 = i3) (h1 : i1 = ix2 (0 : Fin 1) (i3 1)) (h2 : i2 = ix2 (0 : Fin 1) (i3 1)) :
    max (X i0 * s i1 + b i2) 0 = reluAffine64 X s b i3 := by
  subst h0 h1 h2; rfl

/-- The last epilogue at 40 columns, index by index: the entry times the scale row's entry of its column plus the
    shift row's. -/
def affine40 (X : S100000x40.Idx → EReal) (s b : S1x40.Idx → EReal) : S100000x40.Idx → EReal :=
  fun i => X i * s (ix2 (0 : Fin 1) (i 1)) + b (ix2 (0 : Fin 1) (i 1))

/-- The epilogue of three arrays each read where the output's element sits is the function of whole arrays there. -/
private theorem affine40_at (X : S100000x40.Idx → EReal) (s b : S1x40.Idx → EReal) (i3 i0 : S100000x40.Idx) (i1 i2 : S1x40.Idx)
    (h0 : i0 = i3) (h1 : i1 = ix2 (0 : Fin 1) (i3 1)) (h2 : i2 = ix2 (0 : Fin 1) (i3 1)) :
    X i0 * s i1 + b i2 = affine40 X s b i3 := by
  subst h0 h1 h2; rfl

/-! ## Region 1 -/

/-- The body's payload at an element of the block. -/
private theorem pay1_at (x0 : Vec Ideal S10000x64 .f32) (x1 x2 : Vec Ideal S1x64 .f32) (j : S10000x64.Idx) :
    (k1_pay1 x0 x1 x2 : S10000x64.Idx → EReal) j
      = max ((x0 : S10000x64.Idx → EReal) j * (x1 : S1x64.Idx → EReal) (ix2 (0 : Fin 1) (j 1))
          + (x2 : S1x64.Idx → EReal) (ix2 (0 : Fin 1) (j 1))) 0 := by
  obtain ⟨r, q, rfl⟩ : ∃ (r : Fin 10000) (q : Fin 64), j = ix2 r q := ⟨j 0, j 1, eq_ix2 j⟩
  unfold k1_pay1
  simp only [shapeCast_self]
  rw [maximumf_apply, addf_apply, mulf_apply, broadcastTo_1b_ab_apply, broadcastTo_1b_ab_apply, broadcast_apply]
  show max _ (Ideal.ofBits .f32 0x00000000#32) = _
  rw [Ideal.ofBits_zero_f32]

/-- The printed index maps over the grid: the input and the output move together, one block of rows per point, and
    the two row operands stay at block (0, 0). -/
private theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the function of whole arrays, at the arrays as the region finds them. -/
private theorem flushed1_eq (c : Dev nD) (t : Fin cfg1.N) :
    (dat1 (F := Ideal) V c).flushed 3 t
      = ((cfg1.win 3).blk t).view.read (Elt Ideal)
          (reluAffine64 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S1x64) hz]
  obtain ⟨e00, e01, e10, e11, e20, e21, e30, e31⟩ := idx1 t
  funext j
  refine (pay1_at (iblk1 V c 0 t) (iblk1 V c 1 t) (iblk1 V c 2 t) j).trans ?_
  have hj0 : (j 0).val < 10000 := (j 0).isLt
  have hj1 : (j 1).val < 64 := (j 1).isLt
  refine reluAffine64_at (V c (Pipeline.arrRef spec1 0)) (V c (Pipeline.arrRef spec1 1)) (V c (Pipeline.arrRef spec1 2))
    (((cfg1.win 3).blk t).view.emb j) (((cfg1.win 0).blk t).view.emb j)
    (((cfg1.win 1).blk t).view.emb (ix2 (0 : Fin 1) (j 1))) (((cfg1.win 2).blk t).view.emb (ix2 (0 : Fin 1) (j 1))) ?_ ?_ ?_
  · funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · funext a; apply Fin.ext
    match a with
    | ⟨0, _⟩ => show win1_1.index t (0 : Fin 2) * 1 + 1 * 0 = 0; omega
    | ⟨1, _⟩ => show win1_1.index t (1 : Fin 2) * 64 + 1 * (j 1).val = win1_3.index t (1 : Fin 2) * 64 + 1 * (j 1).val; omega
  · funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega

/-- An index of the array is in point `t`'s block iff each coordinate is in the block's range on its axis. -/
private theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v53).slice (win1_3.rect t)).set ↔ _
  rw [View.set_slice_whole, Rect.mem_set_unit]
  exact Iff.rfl

/-- Every row is in the block of the point its quotient by the block's height names. -/
private theorem cover1 (i : S100000x64.Idx) :
    ∃ t : Fin cfg1.N, (cfg1.win 3).flush t = true ∧ i ∈ ((cfg1.win 3).blk t).view.set := by
  have hi0 : (i 0).val < 100000 := idx2_lt0 i
  have hi1 : (i 1).val < 64 := idx2_lt1 i
  have hN : grid1.N = 10 := N_1
  obtain ⟨t, ht⟩ : ∃ t : Fin cfg1.N, t.val = (i 0).val / 10000 := ⟨⟨(i 0).val / 10000, by show _ < grid1.N; omega⟩, rfl⟩
  obtain ⟨-, -, -, -, -, -, e30, e31⟩ := idx1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- Region 1 (an epilogue): after all ten grid points the output array holds, at row `p` and column `q`, the input
    entry times the scale row's entry `q` plus the shift row's entry `q`, clamped below at zero. -/
theorem epi1_apply (c : Dev nD) (p : Fin 100000) (q : Fin 64) :
    ((dat1 (F := Ideal) V c).arrAt 3 cfg1.N : S100000x64.Idx → EReal) (ix2 p q)
      = max (α := EReal) (HAdd.hAdd (α := EReal) (β := EReal) (γ := EReal)
          (HMul.hMul (α := EReal) (β := EReal) (γ := EReal)
            ((V c (Pipeline.arrRef spec1 0) : S100000x64.Idx → EReal) (ix2 p q))
            ((V c (Pipeline.arrRef spec1 1) : S1x64.Idx → EReal) (ix2 (0 : Fin 1) q)))
          ((V c (Pipeline.arrRef spec1 2) : S1x64.Idx → EReal) (ix2 (0 : Fin 1) q))) 0 := by
  have h := (dat1 (F := Ideal) V c).arrAt_eq_of_cover 3
    (reluAffine64 (V c (Pipeline.arrRef spec1 0)) (V c (Pipeline.arrRef spec1 1)) (V c (Pipeline.arrRef spec1 2)))
    (fun t _ => flushed1_eq V c t) cover1
  rw [h]
  rfl

/-! ## Region 3 -/

/-- The body's payload at an element of the block. -/
private theorem pay3_at (x0 : Vec Ideal S10000x64 .f32) (x1 x2 : Vec Ideal S1x64 .f32) (j : S10000x64.Idx) :
    (k3_pay1 x0 x1 x2 : S10000x64.Idx → EReal) j
      = max ((x0 : S10000x64.Idx → EReal) j * (x1 : S1x64.Idx → EReal) (ix2 (0 : Fin 1) (j 1))
          + (x2 : S1x64.Idx → EReal) (ix2 (0 : Fin 1) (j 1))) 0 := by
  obtain ⟨r, q, rfl⟩ : ∃ (r : Fin 10000) (q : Fin 64), j = ix2 r q := ⟨j 0, j 1, eq_ix2 j⟩
  unfold k3_pay1
  simp only [shapeCast_self]
  rw [maximumf_apply, addf_apply, mulf_apply, broadcastTo_1b_ab_apply, broadcastTo_1b_ab_apply, broadcast_apply]
  show max _ (Ideal.ofBits .f32 0x00000000#32) = _
  rw [Ideal.ofBits_zero_f32]

/-- The printed index maps over the grid: the input and the output move together, one block of rows per point, and
    the two row operands stay at block (0, 0). -/
private theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the function of whole arrays, at the arrays as the region finds them. -/
private theorem flushed3_eq (c : Dev nD) (t : Fin cfg3.N) :
    (dat3 (F := Ideal) V c).flushed 3 t
      = ((cfg3.win 3).blk t).view.read (Elt Ideal)
          (reluAffine64 (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero hz]
  simp only [View.ld_unit_zero (S := S10000x64) hz, View.ld_unit_zero (S := S1x64) hz]
  obtain ⟨e00, e01, e10, e11, e20, e21, e30, e31⟩ := idx3 t
  funext j
  refine (pay3_at (iblk3 V c 0 t) (iblk3 V c 1 t) (iblk3 V c 2 t) j).trans ?_
  have hj0 : (j 0).val < 10000 := (j 0).isLt
  have hj1 : (j 1).val < 64 := (j 1).isLt
  refine reluAffine64_at (V c (Pipeline.arrRef spec3 0)) (V c (Pipeline.arrRef spec3 1)) (V c (Pipeline.arrRef spec3 2))
    (((cfg3.win 3).blk t).view.emb j) (((cfg3.win 0).blk t).view.emb j)
    (((cfg3.win 1).blk t).view.emb (ix2 (0 : Fin 1) (j 1))) (((cfg3.win 2).blk t).view.emb (ix2 (0 : Fin 1) (j 1))) ?_ ?_ ?_
  · funext a; apply Fin.ext
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * (j 1).val = win3_3.index t (1 : Fin 2) * 64 + 1 * (j 1).val; omega
  · funext a; apply Fin.ext
    match a with
    | ⟨0, _⟩ => show win3_1.index t (0 : Fin 2) * 1 + 1 * 0 = 0; omega
    | ⟨1, _⟩ => show win3_1.index t (1 : Fin 2) * 64 + 1 * (j 1).val = win3_3.index t (1 : Fin 2) * 64 + 1 * (j 1).val; omega
  · funext a; apply Fin.ext
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega

/-- An index of the array is in point `t`'s block iff each coordinate is in the block's range on its axis. -/
private theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v77).slice (win3_3.rect t)).set ↔ _
  rw [View.set_slice_whole, Rect.mem_set_unit]
  exact Iff.rfl

/-- Every row is in the block of the point its quotient by the block's height names. -/
private theorem cover3 (i : S100000x64.Idx) :
    ∃ t : Fin cfg3.N, (cfg3.win 3).flush t = true ∧ i ∈ ((cfg3.win 3).blk t).view.set := by
  have hi0 : (i 0).val < 100000 := idx2_lt0 i
  have hi1 : (i 1).val < 64 := idx2_lt1 i
  have hN : grid3.N = 10 := N_3
  obtain ⟨t, ht⟩ : ∃ t : Fin cfg3.N, t.val = (i 0).val / 10000 := ⟨⟨(i 0).val / 10000, by show _ < grid3.N; omega⟩, rfl⟩
  obtain ⟨-, -, -, -, -, -, e30, e31⟩ := idx3 t
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- Region 3 (an epilogue): after all ten grid points the output array holds, at row `p` and column `q`, the input
    entry times the scale row's entry `q` plus the shift row's entry `q`, clamped below at zero. -/
theorem epi3_apply (c : Dev nD) (p : Fin 100000) (q : Fin 64) :
    ((dat3 (F := Ideal) V c).arrAt 3 cfg3.N : S100000x64.Idx → EReal) (ix2 p q)
      = max (α := EReal) (HAdd.hAdd (α := EReal) (β := EReal) (γ := EReal)
          (HMul.hMul (α := EReal) (β := EReal) (γ := EReal)
            ((V c (Pipeline.arrRef spec3 0) : S100000x64.Idx → EReal) (ix2 p q))
            ((V c (Pipeline.arrRef spec3 1) : S1x64.Idx → EReal) (ix2 (0 : Fin 1) q)))
          ((V c (Pipeline.arrRef spec3 2) : S1x64.Idx → EReal) (ix2 (0 : Fin 1) q))) 0 := by
  have h := (dat3 (F := Ideal) V c).arrAt_eq_of_cover 3
    (reluAffine64 (V c (Pipeline.arrRef spec3 0)) (V c (Pipeline.arrRef spec3 1)) (V c (Pipeline.arrRef spec3 2)))
    (fun t _ => flushed3_eq V c t) cover3
  rw [h]
  rfl

/-! ## Region 5 -/

/-- The body's payload at an element of the block. -/
private theorem pay5_at (x0 : Vec Ideal S10000x40 .f32) (x1 x2 : Vec Ideal S1x40 .f32) (j : S10000x40.Idx) :
    (k5_pay1 x0 x1 x2 : S10000x40.Idx → EReal) j
      = (x0 : S10000x40.Idx → EReal) j * (x1 : S1x40.Idx → EReal) (ix2 (0 : Fin 1) (j 1))
          + (x2 : S1x40.Idx → EReal) (ix2 (0 : Fin 1) (j 1)) := by
  obtain ⟨r, q, rfl⟩ : ∃ (r : Fin 10000) (q : Fin 40), j = ix2 r q := ⟨j 0, j 1, eq_ix2 j⟩
  unfold k5_pay1
  simp only [shapeCast_self]
  rw [addf_apply, mulf_apply, broadcastTo_1b_ab_apply, broadcastTo_1b_ab_apply]

/-- The printed index maps over the grid: the input and the output move together, one block of rows per point, and
    the two row operands stay at block (0, 0). -/
private theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of the function of whole arrays, at the arrays as the region finds them. -/
private theorem flushed5_eq (c : Dev nD) (t : Fin cfg5.N) :
    (dat5 (F := Ideal) V c).flushed 3 t
      = ((cfg5.win 3).blk t).view.read (Elt Ideal)
          (affine40 (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero hz]
  simp only [View.ld_unit_zero (S := S10000x40) hz, View.ld_unit_zero (S := S1x40) hz]
  obtain ⟨e00, e01, e10, e11, e20, e21, e30, e31⟩ := idx5 t
  funext j
  refine (pay5_at (iblk5 V c 0 t) (iblk5 V c 1 t) (iblk5 V c 2 t) j).trans ?_
  have hj0 : (j 0).val < 10000 := (j 0).isLt
  have hj1 : (j 1).val < 40 := (j 1).isLt
  refine affine40_at (V c (Pipeline.arrRef spec5 0)) (V c (Pipeline.arrRef spec5 1)) (V c (Pipeline.arrRef spec5 2))
    (((cfg5.win 3).blk t).view.emb j) (((cfg5.win 0).blk t).view.emb j)
    (((cfg5.win 1).blk t).view.emb (ix2 (0 : Fin 1) (j 1))) (((cfg5.win 2).blk t).view.emb (ix2 (0 : Fin 1) (j 1))) ?_ ?_ ?_
  · funext a; apply Fin.ext
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 40 + 1 * (j 1).val = win5_3.index t (1 : Fin 2) * 40 + 1 * (j 1).val; omega
  · funext a; apply Fin.ext
    match a with
    | ⟨0, _⟩ => show win5_1.index t (0 : Fin 2) * 1 + 1 * 0 = 0; omega
    | ⟨1, _⟩ => show win5_1.index t (1 : Fin 2) * 40 + 1 * (j 1).val = win5_3.index t (1 : Fin 2) * 40 + 1 * (j 1).val; omega
  · funext a; apply Fin.ext
    match a with
    | ⟨0, _⟩ => show win5_2.index t (0 : Fin 2) * 1 + 1 * 0 = 0; omega
    | ⟨1, _⟩ => show win5_2.index t (1 : Fin 2) * 40 + 1 * (j 1).val = win5_3.index t (1 : Fin 2) * 40 + 1 * (j 1).val; omega

/-- An index of the array is in point `t`'s block iff each coordinate is in the block's range on its axis. -/
private theorem mem_blk5 (t : Fin cfg5.N) (i : S100000x40.Idx) :
    i ∈ ((cfg5.win 3).blk t).view.set ↔ ∀ a : Fin 2, win5_3.index t a * S10000x40.size a ≤ (i a).val ∧ (i a).val < win5_3.index t a * S10000x40.size a + S10000x40.size a := by
  show i ∈ ((View.whole main_v95).slice (win5_3.rect t)).set ↔ _
  rw [View.set_slice_whole, Rect.mem_set_unit]
  exact Iff.rfl

/-- Every row is in the block of the point its quotient by the block's height names. -/
private theorem cover5 (i : S100000x40.Idx) :
    ∃ t : Fin cfg5.N, (cfg5.win 3).flush t = true ∧ i ∈ ((cfg5.win 3).blk t).view.set := by
  have hi0 : (i 0).val < 100000 := idx2_lt0 i
  have hi1 : (i 1).val < 40 := idx2_lt1 i
  have hN : grid5.N = 10 := N_5
  obtain ⟨t, ht⟩ : ∃ t : Fin cfg5.N, t.val = (i 0).val / 10000 := ⟨⟨(i 0).val / 10000, by show _ < grid5.N; omega⟩, rfl⟩
  obtain ⟨-, -, -, -, -, -, e30, e31⟩ := idx5 t
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 40 ≤ (i 1).val ∧ (i 1).val < win5_3.index t (1 : Fin 2) * 40 + 40; omega

/-- Region 5 (an epilogue): after all ten grid points the output array holds, at row `p` and column `q`, the input
    entry times the scale row's entry `q` plus the shift row's entry `q`. -/
theorem epi5_apply (c : Dev nD) (p : Fin 100000) (q : Fin 40) :
    ((dat5 (F := Ideal) V c).arrAt 3 cfg5.N : S100000x40.Idx → EReal) (ix2 p q)
      = HAdd.hAdd (α := EReal) (β := EReal) (γ := EReal)
          (HMul.hMul (α := EReal) (β := EReal) (γ := EReal)
            ((V c (Pipeline.arrRef spec5 0) : S100000x40.Idx → EReal) (ix2 p q))
            ((V c (Pipeline.arrRef spec5 1) : S1x40.Idx → EReal) (ix2 (0 : Fin 1) q)))
          ((V c (Pipeline.arrRef spec5 2) : S1x40.Idx → EReal) (ix2 (0 : Fin 1) q)) := by
  have h := (dat5 (F := Ideal) V c).arrAt_eq_of_cover 3
    (affine40 (V c (Pipeline.arrRef spec5 0)) (V c (Pipeline.arrRef spec5 1)) (V c (Pipeline.arrRef spec5 2)))
    (fun t _ => flushed5_eq V c t) cover5
  rw [h]
  rfl

end Cert.KernelIdeal.EpiValue

end
-- ==== Proof.LibBatchNorm.lean ====
/-
  Finiteness on the extended reals.

  At the ideal instance a float is an extended real and every operation is exact, but the
  extended reals are not a field: ⊤ − ⊤ = ⊥, 0 · ⊤ = 0. An algebraic identity between two
  programs therefore holds only where every intermediate value is FINITE, i.e. the coercion
  of a real number. This module defines that predicate, IsReal, and proves that it is closed
  under the operations a normalising network uses: sum, difference, product, maximum, finite
  sums (so matrix-product entries), choice between two finite values, the quotient by a
  nonzero finite value, and the reciprocal square root of a positive finite value. It also
  evaluates the four 32-bit float words 0, 1, 80000 and 10995116 · 2⁻⁴⁰ (and +∞) as extended
  reals, and relates IsReal to the test |x| < +∞.
-/
import Idealize.ShloMosaic.PureOps.Ideal

noncomputable section

namespace Cert.LibBatchNorm

open Idealize.ShloMosaic
open scoped BigOperators

/-! ## The predicate -/

/-- An extended real is FINITE when it is (the coercion of) a real number. -/
def IsReal (x : EReal) : Prop := ∃ a : ℝ, x = (a : EReal)

/-- A real number is finite. -/
theorem isReal_coe (a : ℝ) : IsReal (a : EReal) := ⟨a, rfl⟩

/-- 0 is finite. -/
theorem isReal_zero : IsReal (0 : EReal) := ⟨0, rfl⟩

/-- 1 is finite. -/
theorem isReal_one : IsReal (1 : EReal) := ⟨1, rfl⟩

/-- x is finite iff it is neither −∞ nor +∞. -/
theorem isReal_iff {x : EReal} : IsReal x ↔ x ≠ ⊥ ∧ x ≠ ⊤ := by
  constructor
  · rintro ⟨a, rfl⟩; exact ⟨EReal.coe_ne_bot a, EReal.coe_ne_top a⟩
  · rintro ⟨hb, ht⟩
    induction x using EReal.rec with
    | bot => exact absurd rfl hb
    | coe a => exact ⟨a, rfl⟩
    | top => exact absurd rfl ht

/-- If |x| = max x (−x) is below +∞ then x is finite. -/
theorem isReal_of_abs_lt_top {x : EReal} (h : max x (-x) < ⊤) : IsReal x := by
  induction x using EReal.rec with
  | bot => exact absurd h (by simp)
  | coe a => exact ⟨a, rfl⟩
  | top => exact absurd h (by simp)

/-- A finite x has |x| = max x (−x) below +∞. -/
theorem abs_lt_top_of_isReal {x : EReal} (hx : IsReal x) : max x (-x) < ⊤ := by
  obtain ⟨a, rfl⟩ := hx
  exact max_lt (EReal.coe_lt_top a) (by rw [← EReal.coe_neg]; exact EReal.coe_lt_top _)

/-- The ordered "less than" comparison answers 1 exactly when x < y. -/
theorem cmp_olt_eq_one_iff (x y : EReal) : Ideal.cmp .olt x y = 1#1 ↔ x < y := by
  unfold Ideal.cmp
  by_cases h : x < y <;> simp [h]

/-! ## Closure under the arithmetic operations -/

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite (it is one of them). -/
theorem IsReal.max {x y : EReal} (hx : IsReal x) (hy : IsReal y) : IsReal (max x y) := by
  rcases le_total x y with h | h
  · rwa [max_eq_right h]
  · rwa [max_eq_left h]

/-- The minimum of two finite values is finite (it is one of them). -/
theorem IsReal.min {x y : EReal} (hx : IsReal x) (hy : IsReal y) : IsReal (min x y) := by
  rcases le_total x y with h | h
  · rwa [min_eq_left h]
  · rwa [min_eq_right h]

/-- |x| = max x (−x) of a finite x is finite. -/
theorem isReal_abs {x : EReal} (hx : IsReal x) : IsReal (max x (-x)) := hx.max hx.neg

/-- A choice between two finite values is finite, whatever the condition. -/
theorem isReal_ite {c : Prop} [Decidable c] {x y : EReal} (hx : IsReal x) (hy : IsReal y) :
    IsReal (if c then x else y) := by
  split <;> assumption

/-- A Boolean choice between two finite values is finite. -/
theorem isReal_cond {c : Bool} {x y : EReal} (hx : IsReal x) (hy : IsReal y) :
    IsReal (bif c then x else y) := by
  cases c <;> assumption

/-- A selection by a one-bit condition between two finite values is finite. -/
theorem isReal_select (c : BitVec 1) {x y : EReal} (hx : IsReal x) (hy : IsReal y) :
    IsReal (Scalar.select c x y) := isReal_ite hx hy

/-! ## Finite sums -/

/-- The coercion ℝ → [−∞, +∞] commutes with finite sums. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A sum over a finite set of finite values is finite. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- A sum over a finite index type of finite values is finite. -/
theorem isReal_sum {ι : Type*} [Fintype ι] (f : ι → EReal) (h : ∀ i, IsReal (f i)) : IsReal (∑ i, f i) :=
  isReal_finset_sum _ _ fun i _ => h i

/-- An entry Σₖ aₖ · bₖ of a matrix product of finite matrices is finite. -/
theorem isReal_sum_mul {κ : Type*} [Fintype κ] (a b : κ → EReal) (ha : ∀ k, IsReal (a k)) (hb : ∀ k, IsReal (b k)) :
    IsReal (∑ k, a k * b k) :=
  isReal_sum _ fun k => (ha k).mul (hb k)

/-- A finite accumulator plus an entry Σₖ aₖ · bₖ of a product of finite matrices is finite. -/
theorem isReal_add_sum_mul {κ : Type*} [Fintype κ] {c : EReal} (hc : IsReal c) (a b : κ → EReal)
    (ha : ∀ k, IsReal (a k)) (hb : ∀ k, IsReal (b k)) : IsReal (c + ∑ k, a k * b k) :=
  hc.add (isReal_sum_mul a b ha hb)

/-- The contraction acc j + Σₖ lhs(j,k) · rhs(k,j) of finite operands onto a finite accumulator is finite at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  isReal_add_sum_mul (ha j) _ _ (fun _ => hl _) (fun _ => hr _)

/-- The contraction Σₖ lhs(j,k) · rhs(k,j) of finite operands is finite at every index. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  isReal_sum_mul _ _ (fun _ => hl _) (fun _ => hr _)

/-- A finite initial value plus the sum of the finite elements that reduce to an index is finite. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (isReal_finset_sum _ _ fun i _ => hx i)

/-- The sum of the finite elements that reduce to an index is finite. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  isReal_finset_sum _ _ fun i _ => hx i

/-- A finite element plus the sum of the finite updates that land on it is finite. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (isReal_finset_sum _ _ fun j _ => hu j)

/-! ## Quotients -/

/-- The quotient of two reals with a nonzero divisor, computed on the extended reals, is their real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A finite value times a real is finite. -/
theorem IsReal.mul_coe {x : EReal} (hx : IsReal x) (c : ℝ) : IsReal (x * (c : EReal)) := hx.mul (isReal_coe c)

/-- The quotient of a finite value by a nonzero real is finite. -/
theorem IsReal.div_coe {x : EReal} (hx : IsReal x) {b : ℝ} (hb : b ≠ 0) : IsReal (Ideal.div x (b : EReal)) := by
  rw [Ideal.div_coe hb]; exact hx.mul (isReal_coe _)

/-- The quotient of a finite value by a finite nonzero value is finite. -/
theorem IsReal.div {x y : EReal} (hx : IsReal x) (hy : IsReal y) (h0 : y ≠ 0) : IsReal (Ideal.div x y) := by
  obtain ⟨b, rfl⟩ := hy
  exact hx.div_coe (fun hb => h0 (by rw [hb]; rfl))

/-- The quotient of a finite value by a finite positive value is finite. -/
theorem IsReal.div_of_pos {x y : EReal} (hx : IsReal x) (hy : IsReal y) (h0 : 0 < y) : IsReal (Ideal.div x y) :=
  hx.div hy h0.ne'

/-! ## The reciprocal square root -/

/-- At a positive real a the reciprocal square root is the real (√a)⁻¹. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- (√a)⁻¹ is positive for a positive real a. -/
theorem inv_sqrt_pos {a : ℝ} (ha : 0 < a) : 0 < (Real.sqrt a)⁻¹ := inv_pos.2 (Real.sqrt_pos.2 ha)

/-- The reciprocal square root of a positive real is finite. -/
theorem isReal_rsqrt_coe_pos {a : ℝ} (ha : 0 < a) : IsReal (Ideal.rsqrt (a : EReal)) := ⟨_, rsqrt_coe_pos ha⟩

/-- The reciprocal square root of a finite positive value is finite. -/
theorem IsReal.rsqrt_of_pos {x : EReal} (hx : IsReal x) (hpos : 0 < x) : IsReal (Ideal.rsqrt x) := by
  obtain ⟨a, rfl⟩ := hx
  exact isReal_rsqrt_coe_pos (EReal.coe_pos.1 hpos)

/-- For reals v ≥ 0 and e > 0 the reciprocal square root of v + e is finite. -/
theorem isReal_rsqrt_add {v e : ℝ} (hv : 0 ≤ v) (he : 0 < e) : IsReal (Ideal.rsqrt ((v : EReal) + (e : EReal))) := by
  rw [← EReal.coe_add]; exact isReal_rsqrt_coe_pos (add_pos_of_nonneg_of_pos hv he)

/-- For reals v ≥ 0 and e > 0 the reciprocal square root of v + e is the real (√(v + e))⁻¹. -/
theorem rsqrt_add_eq {v e : ℝ} (hv : 0 ≤ v) (he : 0 < e) :
    Ideal.rsqrt ((v : EReal) + (e : EReal)) = (((Real.sqrt (v + e))⁻¹ : ℝ) : EReal) := by
  rw [← EReal.coe_add]; exact rsqrt_coe_pos (add_pos_of_nonneg_of_pos hv he)

/-- If x is a nonnegative real and y a positive real then the reciprocal square root of x + y is finite. -/
theorem isReal_rsqrt_add_of {x y : EReal} (hx : ∃ v : ℝ, 0 ≤ v ∧ x = (v : EReal)) (hy : ∃ e : ℝ, 0 < e ∧ y = (e : EReal)) :
    IsReal (Ideal.rsqrt (x + y)) := by
  obtain ⟨v, hv, rfl⟩ := hx; obtain ⟨e, he, rfl⟩ := hy; exact isReal_rsqrt_add hv he

/-- The same for the float operations' reciprocal square root of a float sum, at the ideal instance. -/
theorem isReal_floatOps_rsqrt_add_of {φ : FTy} {x y : Ideal φ} (hx : ∃ v : ℝ, 0 ≤ v ∧ x = (v : EReal))
    (hy : ∃ e : ℝ, 0 < e ∧ y = (e : EReal)) : IsReal (FloatOps.rsqrt (FloatOps.addf x y)) :=
  isReal_rsqrt_add_of hx hy

/-- The same for the host's one-operand reciprocal square root of a float sum, at the ideal instance. -/
theorem isReal_hostUnary_rsqrt_add_of {φ : FTy} {x y : Ideal φ} (hx : ∃ v : ℝ, 0 ≤ v ∧ x = (v : EReal))
    (hy : ∃ e : ℝ, 0 < e ∧ y = (e : EReal)) : IsReal (FloatOps.hostUnary .rsqrt (FloatOps.addf x y)) :=
  isReal_rsqrt_add_of hx hy

/-! ## Four float words as extended reals -/

/-- The 32-bit word 0x00000000 denotes 0. -/
theorem ofBits_f32_zero : Ideal.ofBits .f32 0x00000000#32 = 0 := by
  simp [Ideal.ofBits, Ideal.ieee]

/-- The 32-bit word 0x3F800000 denotes 1. -/
theorem ofBits_f32_one : Ideal.ofBits .f32 0x3F800000#32 = 1 := by
  simp [Ideal.ofBits, Ideal.ieee, -EReal.coe_mul]; norm_num

/-- The 32-bit word 0x479C4000 denotes the real 80000. -/
theorem ofBits_f32_80000 : Ideal.ofBits .f32 0x479C4000#32 = ((80000 : ℝ) : EReal) := by
  simp [Ideal.ofBits, Ideal.ieee, -EReal.coe_mul]; norm_num

/-- The 32-bit word 0x3727C5AC (about 10⁻⁵) denotes the real 10995116 / 2⁴⁰. -/
theorem ofBits_f32_eps : Ideal.ofBits .f32 0x3727C5AC#32 = ((10995116 / 2 ^ 40 : ℝ) : EReal) := by
  simp [Ideal.ofBits, Ideal.ieee, -EReal.coe_mul]; norm_num

/-- The 32-bit word 0x7F800000 denotes +∞. -/
theorem ofBits_f32_inf : Ideal.ofBits .f32 0x7F800000#32 = ⊤ := by
  simp [Ideal.ofBits, Ideal.ieee]

/-- 10995116 / 2⁴⁰ is positive. -/
theorem eps_pos : (0 : ℝ) < 10995116 / 2 ^ 40 := by positivity

/-- The word 0x00000000 denotes a finite value. -/
theorem isReal_ofBits_f32_zero : IsReal (Ideal.ofBits .f32 0x00000000#32) := ofBits_f32_zero ▸ isReal_zero

/-- The word 0x3F800000 denotes a finite value. -/
theorem isReal_ofBits_f32_one : IsReal (Ideal.ofBits .f32 0x3F800000#32) := ofBits_f32_one ▸ isReal_one

/-- The word 0x479C4000 denotes a finite value. -/
theorem isReal_ofBits_f32_80000 : IsReal (Ideal.ofBits .f32 0x479C4000#32) := ⟨_, ofBits_f32_80000⟩

/-- The word 0x3727C5AC denotes a finite value. -/
theorem isReal_ofBits_f32_eps : IsReal (Ideal.ofBits .f32 0x3727C5AC#32) := ⟨_, ofBits_f32_eps⟩

/-- The word 0x3727C5AC denotes a positive real. -/
theorem ofBits_f32_eps_pos : ∃ e : ℝ, 0 < e ∧ Ideal.ofBits .f32 0x3727C5AC#32 = (e : EReal) :=
  ⟨_, eps_pos, ofBits_f32_eps⟩

/-- 80000 is not 0. -/
theorem eighty_thousand_ne_zero : (80000 : ℝ) ≠ 0 := by norm_num

/-- If the comparison |x| < (the word 0x7F800000, that is +∞) answers 1, then x is finite. -/
theorem isReal_of_cmp_abs_lt_inf {x : EReal}
    (h : Ideal.cmp .olt (max x (-x)) (Ideal.ofBits .f32 0x7F800000#32) = 1#1) : IsReal x := by
  rw [ofBits_f32_inf, cmp_olt_eq_one_iff] at h
  exact isReal_of_abs_lt_top h

end Cert.LibBatchNorm

end
-- ==== Proof.BnAlgebra.lean ====
import proofs.«145570_j73967926772366_1_alg».proof.Proof.LibBatchNorm
import Idealize.ShloMosaic.PureOps.Ideal

noncomputable section

namespace Cert.BnAlgebra

open Idealize.ShloMosaic Cert.LibBatchNorm

/-- The shift `be + (g · r) · (b - m)` of real numbers, computed on the extended reals, is the coercion of the same
    real expression: no infinity can arise. -/
private theorem shift_coe (g r b m be : ℝ) :
    (be : EReal) + ((g : EReal) * (r : EReal)) * ((b : EReal) - (m : EReal))
      = ((be + (g * r) * (b - m) : ℝ) : EReal) := by
  rw [EReal.coe_add, EReal.coe_mul, EReal.coe_mul, EReal.coe_sub]

/-- The affine identity behind folding a batch normalisation into one scale and one shift: for real `g b m be`, a real
    `r > 0` and ANY extended real `a` (the infinities included: both sides are then the infinity of the sign of `g`,
    or `be` when `g = 0`). -/
theorem bn_affine (a : EReal) (g r b m be : ℝ) (hr : 0 < r) :
    ((g : EReal) * ((a + (b : EReal)) - (m : EReal))) * (r : EReal) + (be : EReal)
      = a * ((g : EReal) * (r : EReal)) + ((be : EReal) + ((g : EReal) * (r : EReal)) * ((b : EReal) - (m : EReal))) := by
  rw [shift_coe, ← EReal.coe_mul g r]
  induction a using EReal.rec with
  | coe x =>
    -- every term is real: the identity is the distributive law in ℝ
    simp only [← EReal.coe_add, ← EReal.coe_sub, ← EReal.coe_mul]
    congr 1; ring
  | top =>
    -- ⊤ + b - m = ⊤; then the sign of g decides, and g · r has the sign of g because r > 0
    rw [EReal.top_add_coe, EReal.top_sub_coe]
    rcases lt_trichotomy g 0 with hg | hg | hg
    · rw [EReal.coe_mul_top_of_neg hg, EReal.bot_mul_coe_of_pos hr, EReal.bot_add,
        EReal.top_mul_coe_of_neg (mul_neg_of_neg_of_pos hg hr), EReal.bot_add]
    · subst hg
      simp
    · rw [EReal.coe_mul_top_of_pos hg, EReal.top_mul_coe_of_pos hr, EReal.top_add_coe,
        EReal.top_mul_coe_of_pos (mul_pos hg hr), EReal.top_add_coe]
  | bot =>
    -- ⊥ + b - m = ⊥; the mirror image of the previous case
    rw [EReal.bot_add, EReal.bot_sub]
    rcases lt_trichotomy g 0 with hg | hg | hg
    · rw [EReal.coe_mul_bot_of_neg hg, EReal.top_mul_coe_of_pos hr, EReal.top_add_coe,
        EReal.bot_mul_coe_of_neg (mul_neg_of_neg_of_pos hg hr), EReal.top_add_coe]
    · subst hg
      simp
    · rw [EReal.coe_mul_bot_of_pos hg, EReal.bot_mul_coe_of_pos hr, EReal.bot_add,
        EReal.bot_mul_coe_of_pos (mul_pos hg hr), EReal.bot_add]

/-- The same identity in the programs' own terms, under the clamp at zero: `g b m be` real, the variance `v` a
    non-negative real, the epsilon the f32 word of 1e-5; `a` any extended real. Left: the reference's order of
    operations. Right: the kernel's (scale `g · rsqrt (v + ε)`, shift `be + scale · (b - m)`). -/
theorem bn_point (a g v b m be : EReal) (hg : IsReal g) (hb : IsReal b) (hm : IsReal m) (hbe : IsReal be)
    (hv : ∃ x : ℝ, 0 ≤ x ∧ v = (x : EReal)) :
    max (((g * ((a + b) - m)) * Ideal.rsqrt (v + Ideal.ofBits .f32 0x3727C5AC#32)) + be) 0
      = max (a * (g * Ideal.rsqrt (v + Ideal.ofBits .f32 0x3727C5AC#32))
              + (be + (g * Ideal.rsqrt (v + Ideal.ofBits .f32 0x3727C5AC#32)) * (b - m))) 0 := by
  obtain ⟨g, rfl⟩ := hg; obtain ⟨b, rfl⟩ := hb; obtain ⟨m, rfl⟩ := hm; obtain ⟨be, rfl⟩ := hbe
  obtain ⟨x, hx, rfl⟩ := hv
  -- v + ε is a positive real, so its reciprocal square root is the positive real (√(x + ε))⁻¹
  rw [ofBits_f32_eps, rsqrt_add_eq hx eps_pos]
  exact congrArg (max · 0)
    (bn_affine a g _ b m be (inv_sqrt_pos (add_pos_of_nonneg_of_pos hx eps_pos)))

/-- The last layer has no normalisation: its scale is the word of 1.0. -/
theorem bias_point (a b : EReal) : a * Ideal.ofBits .f32 0x3F800000#32 + b = a + b := by
  rw [ofBits_f32_one, mul_one]

end Cert.BnAlgebra

end
-- ==== Proof.PreDecode.lean ====
import proofs.«145570_j73967926772366_1_alg».proof.Defs
import proofs.«145570_j73967926772366_1_alg».proof.Proof.LibBatchNorm
import Idealize.ShloMosaic.Lib.ValueIdx
import Idealize.ShloMosaic.Lib.ReduceAll

noncomputable section

namespace Cert.PreDecode

open Idealize.ShloMosaic Idealize.SL.Sem Cert.LibBatchNorm Idealize.ShloMosaic.ValueIdx

/-- The ordered "greater or equal" comparison answers 1 exactly when y ≤ x. -/
private theorem cmp_oge_eq_one_iff (x y : EReal) : Ideal.cmp .oge x y = 1#1 ↔ y ≤ x := by
  unfold Ideal.cmp
  by_cases h : y ≤ x <;> simp [h]

/-- A finite value that the comparison x ≥ (the word 0x00000000, that is 0) accepts is a non-negative real. -/
private theorem nonneg_of_cmp_ge_zero {x : EReal} (hx : IsReal x)
    (h : Ideal.cmp .oge x (Ideal.ofBits .f32 0x00000000#32) = 1#1) : ∃ a : ℝ, 0 ≤ a ∧ x = (a : EReal) := by
  obtain ⟨a, rfl⟩ := hx
  rw [ofBits_f32_zero, cmp_oge_eq_one_iff] at h
  exact ⟨a, EReal.coe_nonneg.1 h, rfl⟩

/-- The predicate over arbitrary argument arrays. It is a conjunction of seventeen tests, each the conjunction over all
    entries of one array of an entrywise comparison: fifteen of the form |x| < +∞ and two of the form v ≥ 0. If it
    answers 1 then each test answers 1, hence each of its entrywise comparisons does; |x| < +∞ makes an entry a real
    number, and a real number with v ≥ 0 is a non-negative real. Only the ten length-64 vectors are read off here. -/
private theorem decode [Cert.Pre_finite_inputs.Facts]
    (x0 : FVec Ideal Cert.Pre_finite_inputs.S100000x128 .f32) (x1 : IVec Cert.Pre_finite_inputs.S2x1600000 32)
    (x2 : FVec Ideal Cert.Pre_finite_inputs.S128x64 .f32)
    (x3 x4 x5 x6 x7 : FVec Ideal Cert.Pre_finite_inputs.S64 .f32) (x8 : FVec Ideal Cert.Pre_finite_inputs.S64x64 .f32)
    (x9 x10 x11 x12 x13 : FVec Ideal Cert.Pre_finite_inputs.S64 .f32)
    (x14 : FVec Ideal Cert.Pre_finite_inputs.S64x40 .f32) (x15 : FVec Ideal Cert.Pre_finite_inputs.S40 .f32)
    (h : Cert.Pre_finite_inputs.fn (F := Ideal) x0 x1 x2 x3 x4 x5 x6 x7 x8 x9 x10 x11 x12 x13 x14 x15 = fun _ => 1#1)
    (i : Cert.Pre_finite_inputs.S64.Idx) :
    IsReal (x3 i) ∧ IsReal (x4 i) ∧ IsReal (x5 i) ∧ IsReal (x6 i) ∧ (∃ a : ℝ, 0 ≤ a ∧ (x7 i : EReal) = (a : EReal))
    ∧ IsReal (x9 i) ∧ IsReal (x10 i) ∧ IsReal (x11 i) ∧ IsReal (x12 i)
    ∧ (∃ a : ℝ, 0 ≤ a ∧ (x13 i : EReal) = (a : EReal)) := by
  -- the scalar shape has exactly one index, so a reduction onto it is a conjunction over ALL entries
  haveI : Subsingleton Cert.Pre_finite_inputs.S_.Idx := ⟨fun a b => funext fun d => d.elim0⟩
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨⟨⟨-, -⟩, h3⟩, h4⟩, h5⟩, h6⟩, h7⟩, -⟩, h9⟩, h10⟩, h11⟩, h12⟩, h13⟩, -⟩, -⟩, g7⟩, g13⟩ := e
  have r3 : IsReal (x3 i) := isReal_of_cmp_abs_lt_inf (Host.reduce_andi_all _ _ _ _ _ h3 i)
  have r4 : IsReal (x4 i) := isReal_of_cmp_abs_lt_inf (Host.reduce_andi_all _ _ _ _ _ h4 i)
  have r5 : IsReal (x5 i) := isReal_of_cmp_abs_lt_inf (Host.reduce_andi_all _ _ _ _ _ h5 i)
  have r6 : IsReal (x6 i) := isReal_of_cmp_abs_lt_inf (Host.reduce_andi_all _ _ _ _ _ h6 i)
  have r7 : IsReal (x7 i) := isReal_of_cmp_abs_lt_inf (Host.reduce_andi_all _ _ _ _ _ h7 i)
  have r9 : IsReal (x9 i) := isReal_of_cmp_abs_lt_inf (Host.reduce_andi_all _ _ _ _ _ h9 i)
  have r10 : IsReal (x10 i) := isReal_of_cmp_abs_lt_inf (Host.reduce_andi_all _ _ _ _ _ h10 i)
  have r11 : IsReal (x11 i) := isReal_of_cmp_abs_lt_inf (Host.reduce_andi_all _ _ _ _ _ h11 i)
  have r12 : IsReal (x12 i) := isReal_of_cmp_abs_lt_inf (Host.reduce_andi_all _ _ _ _ _ h12 i)
  have r13 : IsReal (x13 i) := isReal_of_cmp_abs_lt_inf (Host.reduce_andi_all _ _ _ _ _ h13 i)
  exact ⟨r3, r4, r5, r6, nonneg_of_cmp_ge_zero r7 (Host.reduce_andi_all _ _ _ _ _ g7 i),
    r9, r10, r11, r12, nonneg_of_cmp_ge_zero r13 (Host.reduce_andi_all _ _ _ _ _ g13 i)⟩

/-- What the precondition says of the ten normalisation vectors, entry by entry: the biases `b`, gains `g`, offsets
    `be` and running means `m` of both normalised layers are real numbers, and both running variances `v` are
    non-negative real numbers. (Arguments 3..7 are b1 g1 be1 m1 v1, arguments 9..13 are b2 g2 be2 m2 v2.) -/
theorem bn_params [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (q : Fin 64) :
    IsReal ((m ((c.tc : Thread Cert.KernelIdeal.nD Cert.KernelIdeal.τ).loc Cert.KernelIdeal.main_arg3) : Cert.KernelIdeal.S64.Idx → EReal) (ix1 q))
    ∧ IsReal ((m ((c.tc : Thread Cert.KernelIdeal.nD Cert.KernelIdeal.τ).loc Cert.KernelIdeal.main_arg4) : Cert.KernelIdeal.S64.Idx → EReal) (ix1 q))
    ∧ IsReal ((m ((c.tc : Thread Cert.KernelIdeal.nD Cert.KernelIdeal.τ).loc Cert.KernelIdeal.main_arg5) : Cert.KernelIdeal.S64.Idx → EReal) (ix1 q))
    ∧ IsReal ((m ((c.tc : Thread Cert.KernelIdeal.nD Cert.KernelIdeal.τ).loc Cert.KernelIdeal.main_arg6) : Cert.KernelIdeal.S64.Idx → EReal) (ix1 q))
    ∧ (∃ x : ℝ, 0 ≤ x ∧ (m ((c.tc : Thread Cert.KernelIdeal.nD Cert.KernelIdeal.τ).loc Cert.KernelIdeal.main_arg7) : Cert.KernelIdeal.S64.Idx → EReal) (ix1 q) = (x : EReal))
    ∧ IsReal ((m ((c.tc : Thread Cert.KernelIdeal.nD Cert.KernelIdeal.τ).loc Cert.KernelIdeal.main_arg9) : Cert.KernelIdeal.S64.Idx → EReal) (ix1 q))
    ∧ IsReal ((m ((c.tc : Thread Cert.KernelIdeal.nD Cert.KernelIdeal.τ).loc Cert.KernelIdeal.main_arg10) : Cert.KernelIdeal.S64.Idx → EReal) (ix1 q))
    ∧ IsReal ((m ((c.tc : Thread Cert.KernelIdeal.nD Cert.KernelIdeal.τ).loc Cert.KernelIdeal.main_arg11) : Cert.KernelIdeal.S64.Idx → EReal) (ix1 q))
    ∧ IsReal ((m ((c.tc : Thread Cert.KernelIdeal.nD Cert.KernelIdeal.τ).loc Cert.KernelIdeal.main_arg12) : Cert.KernelIdeal.S64.Idx → EReal) (ix1 q))
    ∧ (∃ x : ℝ, 0 ≤ x ∧ (m ((c.tc : Thread Cert.KernelIdeal.nD Cert.KernelIdeal.τ).loc Cert.KernelIdeal.main_arg13) : Cert.KernelIdeal.S64.Idx → EReal) (ix1 q) = (x : EReal)) := by
  exact decode _ _ _ _ _ _ _ _ _ _ _ _ _ _ _ _ (hpre c) (ix1 q)

end Cert.PreDecode

end
-- ==== Proof.RefBn.lean ====
import proofs.«145570_j73967926772366_1_alg».proof.Proof.RefRead
import Idealize.ShloMosaic.Lib.ValueIdx
import Idealize.ShloMosaic.PureOps.Ideal

set_option maxRecDepth 16384

noncomputable section

namespace Cert.RefBn

open Cert.ReferenceIdeal Cert.ReferenceIdeal.Read Idealize.ShloMosaic Idealize.ShloMosaic.TcCoe
open Idealize.ShloMosaic.ValueIdx

/-- The reference's first layer after its aggregation, at row `p` and column `q`: bias added, running mean subtracted,
    times the gain, times the inverse square root of variance plus epsilon, offset added, clamped below at zero — in that
    order — of the aggregated entry and entries `q` of the five parameter vectors. -/
theorem bn1_apply (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 x6 x7 : (⟨S64, .f32⟩ : BufTy).Contents (Elt Ideal))
    (p : Fin 100000) (q : Fin 64) :
    val_main_v62 (F := Ideal) x0 x1 x2 x3 x4 x5 x6 x7 (ix2 p q)
      = max (((x4 (ix1 q) * ((val_main_v43 (F := Ideal) x0 x1 x2 (ix2 p q) + x3 (ix1 q)) - x6 (ix1 q)))
                * Ideal.rsqrt (x7 (ix1 q) + Ideal.ofBits .f32 0x3727C5AC#32)) + x5 (ix1 q)) 0 := by
  -- the two broadcasts of a parameter vector, composed, read entry q of it
  have e44 : idx_main_v44 (idx_main_v45 (ix2 p q)) = ix1 q := funext fun a => by match a with | ⟨0, _⟩ => rfl
  have e47 : idx_main_v47 (idx_main_v48 (ix2 p q)) = ix1 q := funext fun a => by match a with | ⟨0, _⟩ => rfl
  have e50 : idx_main_v50 (idx_main_v51 (ix2 p q)) = ix1 q := funext fun a => by match a with | ⟨0, _⟩ => rfl
  have e56 : idx_main_v56 (idx_main_v57 (ix2 p q)) = ix1 q := funext fun a => by match a with | ⟨0, _⟩ => rfl
  have e59 : idx_main_v59 (idx_main_v60 (ix2 p q)) = ix1 q := funext fun a => by match a with | ⟨0, _⟩ => rfl
  -- read each operation at the index, outermost first; the aggregation (stage 43) is left as it is
  rw [val_main_v62_apply, val_main_v61_apply, val_main_v58_apply, val_main_v57_apply, val_main_v56_apply,
    val_main_v55_apply, val_main_v54_apply, val_main_v53_apply, val_main_cst_9_apply, val_main_v52_apply,
    val_main_v51_apply, val_main_v50_apply, val_main_v49_apply, val_main_v48_apply, val_main_v47_apply,
    val_main_v46_apply, val_main_v45_apply, val_main_v44_apply, val_main_v60_apply, val_main_v59_apply,
    val_main_call1_v0_apply, val_main_call1_cst_apply, e44, e47, e50, e56, e59]
  -- from here on the aggregated entry is just a number
  generalize val_main_v43 (F := Ideal) x0 x1 x2 (ix2 p q) = A
  simp only [Ideal.ofBits_def, Ideal.addf_def, Ideal.subf_def, Ideal.mulf_def, Ideal.maximumf_def, Ideal.hostUnary_rsqrt_def, Ideal.ofBits_zero_f32]

/-- The same for the second layer (its aggregation is stage 76; parameters: bias 9, gain 10, offset 11, mean 12, variance 13). -/
theorem bn2_apply (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (p : Fin 100000) (q : Fin 64) :
    val_main_v95 (F := Ideal) x0 x1 x2 x3 x4 x5 x6 x7 x8 x9 x10 x11 x12 x13 (ix2 p q)
      = max (((x10 (ix1 q) * ((val_main_v76 (F := Ideal) x0 x1 x2 x3 x4 x5 x6 x7 x8 (ix2 p q) + x9 (ix1 q)) - x12 (ix1 q)))
                * Ideal.rsqrt (x13 (ix1 q) + Ideal.ofBits .f32 0x3727C5AC#32)) + x11 (ix1 q)) 0 := by
  -- the two broadcasts of a parameter vector, composed, read entry q of it
  have e77 : idx_main_v77 (idx_main_v78 (ix2 p q)) = ix1 q := funext fun a => by match a with | ⟨0, _⟩ => rfl
  have e80 : idx_main_v80 (idx_main_v81 (ix2 p q)) = ix1 q := funext fun a => by match a with | ⟨0, _⟩ => rfl
  have e83 : idx_main_v83 (idx_main_v84 (ix2 p q)) = ix1 q := funext fun a => by match a with | ⟨0, _⟩ => rfl
  have e89 : idx_main_v89 (idx_main_v90 (ix2 p q)) = ix1 q := funext fun a => by match a with | ⟨0, _⟩ => rfl
  have e92 : idx_main_v92 (idx_main_v93 (ix2 p q)) = ix1 q := funext fun a => by match a with | ⟨0, _⟩ => rfl
  -- read each operation at the index, outermost first; the aggregation (stage 76) is left as it is
  rw [val_main_v95_apply, val_main_v94_apply, val_main_v91_apply, val_main_v90_apply, val_main_v89_apply,
    val_main_v88_apply, val_main_v87_apply, val_main_v86_apply, val_main_cst_13_apply, val_main_v85_apply,
    val_main_v84_apply, val_main_v83_apply, val_main_v82_apply, val_main_v81_apply, val_main_v80_apply,
    val_main_v79_apply, val_main_v78_apply, val_main_v77_apply, val_main_v93_apply, val_main_v92_apply,
    val_main_call2_v0_apply, val_main_call2_cst_apply, e77, e80, e83, e89, e92]
  -- from here on the aggregated entry is just a number
  generalize val_main_v76 (F := Ideal) x0 x1 x2 x3 x4 x5 x6 x7 x8 (ix2 p q) = A
  simp only [Ideal.ofBits_def, Ideal.addf_def, Ideal.subf_def, Ideal.mulf_def, Ideal.maximumf_def, Ideal.hostUnary_rsqrt_def, Ideal.ofBits_zero_f32]

/-- The last layer has no normalisation: its aggregation (stage 109) plus the bias. -/
theorem out_apply (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 x6 x7 : (⟨S64, .f32⟩ : BufTy).Contents (Elt Ideal))
    (x8 : (⟨S64x64, .f32⟩ : BufTy).Contents (Elt Ideal)) (x9 x10 x11 x12 x13 : (⟨S64, .f32⟩ : BufTy).Contents (Elt Ideal))
    (x14 : (⟨S64x40, .f32⟩ : BufTy).Contents (Elt Ideal)) (x15 : (⟨S40, .f32⟩ : BufTy).Contents (Elt Ideal))
    (p : Fin 100000) (q : Fin 40) :
    val_main_v112 (F := Ideal) x0 x1 x2 x3 x4 x5 x6 x7 x8 x9 x10 x11 x12 x13 x14 x15 (ix2 p q)
      = val_main_v109 (F := Ideal) x0 x1 x2 x3 x4 x5 x6 x7 x8 x9 x10 x11 x12 x13 x14 (ix2 p q) + x15 (ix1 q) := by
  -- the two broadcasts of the bias vector, composed, read entry q of it
  have e110 : idx_main_v110 (idx_main_v111 (ix2 p q)) = ix1 q := funext fun a => by match a with | ⟨0, _⟩ => rfl
  rw [val_main_v112_apply, val_main_v111_apply, val_main_v110_apply, e110]
  -- from here on the aggregated entry is just a number
  generalize val_main_v109 (F := Ideal) x0 x1 x2 x3 x4 x5 x6 x7 x8 x9 x10 x11 x12 x13 x14 (ix2 p q) = A
  simp only [Ideal.addf_def]

end Cert.RefBn

end
-- ==== Proof.BridgeR.lean ====
import proofs.«145570_j73967926772366_1_alg».proof.Proof.Gen.KernelIdeal.Frame
import proofs.«145570_j73967926772366_1_alg».proof.Proof.RefRead
import proofs.«145570_j73967926772366_1_alg».proof.Proof.HostKeep
import proofs.«145570_j73967926772366_1_alg».proof.Proof.BridgeH
import proofs.«145570_j73967926772366_1_alg».proof.Proof.LinRegions
import proofs.«145570_j73967926772366_1_alg».proof.Proof.EpiRegions
import proofs.«145570_j73967926772366_1_alg».proof.Proof.BnAlgebra
import proofs.«145570_j73967926772366_1_alg».proof.Proof.PreDecode
import proofs.«145570_j73967926772366_1_alg».proof.Proof.RefBn
set_option maxRecDepth 16384

noncomputable section

namespace Cert.Bridge

open Cert.KernelIdeal Cert.KernelIdeal.Gen Cert.KernelIdeal.Keep
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! # The regions

A linear region leaves in its output array the product of its input array with its weight array, which is what the
reference's matrix product holds at every index. An epilogue region leaves the input times the scale row plus the shift
row, clamped at zero in the first two layers; with the rows as the host operations prepared them this is the reference's
bias, normalisation and clamp, by the affine identity of the normalisation — which needs the parameters real and the
variance non-negative (the precondition), and nothing of the aggregated entry. -/

open Cert.LibBatchNorm

/-- Linear region 0: its output array is the reference's matrix product. -/
theorem lin0_of
    (hin : W3 m ρ c (Proc.devRef .tc main_arg0) = (m ((c : Thread nD τ).loc main_arg0)))
    (hw : W3 m ρ c (Proc.devRef .tc main_arg2) = (m ((c : Thread nD τ).loc main_arg2))) :
    W4 m ρ c (Proc.devRef .tc main_v30) = Cert.ReferenceIdeal.Read.val_main_v30 (F := Ideal) (m ((c : Thread nD τ).loc main_arg0)) (m ((c : Thread nD τ).loc main_arg2)) := by
  refine (W4_arr m ρ c 2).trans ?_
  funext i
  obtain ⟨p, q, rfl⟩ : ∃ (p : Fin 100000) (q : Fin 64), i = ix2 p q := ⟨i 0, i 1, eq_ix2 i⟩
  rw [Cert.KernelIdeal.LinValue.lin0_apply, Cert.ReferenceIdeal.Read.val_main_v30_apply]
  refine Finset.sum_congr (M := EReal) rfl fun k _ => ?_
  show at2 (W3 m ρ c (Proc.devRef .tc main_arg0)) p k * at2 (W3 m ρ c (Proc.devRef .tc main_arg2)) k q = _
  rw [hin, hw,
    show Cert.ReferenceIdeal.Read.lidx_main_v30 (ix2 p q) k = ix2 p k from funext fun a => by match a with | ⟨0, _⟩ => rfl | ⟨1, _⟩ => rfl,
    show Cert.ReferenceIdeal.Read.ridx_main_v30 (ix2 p q) k = ix2 k q from funext fun a => by match a with | ⟨0, _⟩ => rfl | ⟨1, _⟩ => rfl]

/-- Linear region 2: its output array is the reference's matrix product. -/
theorem lin2_of
    (hin : W6 m ρ c (Proc.devRef .tc main_v53) = (Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))))
    (hw : W6 m ρ c (Proc.devRef .tc main_arg8) = (m ((c : Thread nD τ).loc main_arg8))) :
    W7 m ρ c (Proc.devRef .tc main_v54) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 2).trans ?_
  funext i
  obtain ⟨p, q, rfl⟩ : ∃ (p : Fin 100000) (q : Fin 64), i = ix2 p q := ⟨i 0, i 1, eq_ix2 i⟩
  rw [Cert.KernelIdeal.LinValue.lin2_apply, Cert.ReferenceIdeal.Read.val_main_v63_apply]
  refine Finset.sum_congr (M := EReal) rfl fun k _ => ?_
  show at2 (W6 m ρ c (Proc.devRef .tc main_v53)) p k * at2 (W6 m ρ c (Proc.devRef .tc main_arg8)) k q = _
  rw [hin, hw,
    show Cert.ReferenceIdeal.Read.lidx_main_v63 (ix2 p q) k = ix2 p k from funext fun a => by match a with | ⟨0, _⟩ => rfl | ⟨1, _⟩ => rfl,
    show Cert.ReferenceIdeal.Read.ridx_main_v63 (ix2 p q) k = ix2 k q from funext fun a => by match a with | ⟨0, _⟩ => rfl | ⟨1, _⟩ => rfl]

/-- Linear region 4: its output array is the reference's matrix product. -/
theorem lin4_of
    (hin : W9 m ρ c (Proc.devRef .tc main_v77) = (Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))))
    (hw : W9 m ρ c (Proc.devRef .tc main_arg14) = (m ((c : Thread nD τ).loc main_arg14))) :
    W10 m ρ c (Proc.devRef .tc main_v78) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 2).trans ?_
  funext i
  obtain ⟨p, q, rfl⟩ : ∃ (p : Fin 100000) (q : Fin 40), i = ix2 p q := ⟨i 0, i 1, eq_ix2 i⟩
  rw [Cert.KernelIdeal.LinValue.lin4_apply, Cert.ReferenceIdeal.Read.val_main_v96_apply]
  refine Finset.sum_congr (M := EReal) rfl fun k _ => ?_
  show at2 (W9 m ρ c (Proc.devRef .tc main_v77)) p k * at2 (W9 m ρ c (Proc.devRef .tc main_arg14)) k q = _
  rw [hin, hw,
    show Cert.ReferenceIdeal.Read.lidx_main_v96 (ix2 p q) k = ix2 p k from funext fun a => by match a with | ⟨0, _⟩ => rfl | ⟨1, _⟩ => rfl,
    show Cert.ReferenceIdeal.Read.ridx_main_v96 (ix2 p q) k = ix2 k q from funext fun a => by match a with | ⟨0, _⟩ => rfl | ⟨1, _⟩ => rfl]

/-- Epilogue region 1: with the scale and shift rows as prepared, its output array is the reference's layer output. -/
theorem epi1_of [hPre_finite_inputs : Cert.Pre_finite_inputs.Facts] (hpre : Cert.Pre_KernelIdeal m)
    (hagg : W5 m ρ c (Proc.devRef .tc main_v43) = Cert.ReferenceIdeal.Read.val_main_v43 (F := Ideal) (m ((c : Thread nD τ).loc main_arg0)) (m ((c : Thread nD τ).loc main_arg1)) (m ((c : Thread nD τ).loc main_arg2)))
    (hsc : ∀ q : Fin 64, at2 (W5 m ρ c (Proc.devRef .tc main_v51)) (0 : Fin 1) q = at1 (m ((c : Thread nD τ).loc main_arg4)) q * Ideal.rsqrt (at1 (m ((c : Thread nD τ).loc main_arg7)) q + Ideal.ofBits .f32 0x3727C5AC#32))
    (hsh : ∀ q : Fin 64, at2 (W5 m ρ c (Proc.devRef .tc main_v52)) (0 : Fin 1) q
      = at1 (m ((c : Thread nD τ).loc main_arg5)) q + (at1 (m ((c : Thread nD τ).loc main_arg4)) q * Ideal.rsqrt (at1 (m ((c : Thread nD τ).loc main_arg7)) q + Ideal.ofBits .f32 0x3727C5AC#32)) * (at1 (m ((c : Thread nD τ).loc main_arg3)) q - at1 (m ((c : Thread nD τ).loc main_arg6)) q)) :
    W6 m ρ c (Proc.devRef .tc main_v53) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 3).trans ?_
  funext i
  obtain ⟨p, q, rfl⟩ : ∃ (p : Fin 100000) (q : Fin 64), i = ix2 p q := ⟨i 0, i 1, eq_ix2 i⟩
  rw [Cert.KernelIdeal.EpiValue.epi1_apply, Cert.RefBn.bn1_apply]
  show max (at2 (W5 m ρ c (Proc.devRef .tc main_v43)) p q * at2 (W5 m ρ c (Proc.devRef .tc main_v51)) (0 : Fin 1) q
      + at2 (W5 m ρ c (Proc.devRef .tc main_v52)) (0 : Fin 1) q) 0 = _
  rw [hsc q, hsh q, hagg]
  obtain ⟨hb, hg, hbe, hm, hv, -, -, -, -, -⟩ := Cert.PreDecode.bn_params m hpre c q
  exact (Cert.BnAlgebra.bn_point _ _ _ _ _ _ hg hb hm hbe hv).symm

/-- Epilogue region 3: with the scale and shift rows as prepared, its output array is the reference's layer output. -/
theorem epi3_of [hPre_finite_inputs : Cert.Pre_finite_inputs.Facts] (hpre : Cert.Pre_KernelIdeal m)
    (hagg : W8 m ρ c (Proc.devRef .tc main_v67) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (hsc : ∀ q : Fin 64, at2 (W8 m ρ c (Proc.devRef .tc main_v75)) (0 : Fin 1) q = at1 (m ((c : Thread nD τ).loc main_arg10)) q * Ideal.rsqrt (at1 (m ((c : Thread nD τ).loc main_arg13)) q + Ideal.ofBits .f32 0x3727C5AC#32))
    (hsh : ∀ q : Fin 64, at2 (W8 m ρ c (Proc.devRef .tc main_v76)) (0 : Fin 1) q
      = at1 (m ((c : Thread nD τ).loc main_arg11)) q + (at1 (m ((c : Thread nD τ).loc main_arg10)) q * Ideal.rsqrt (at1 (m ((c : Thread nD τ).loc main_arg13)) q + Ideal.ofBits .f32 0x3727C5AC#32)) * (at1 (m ((c : Thread nD τ).loc main_arg9)) q - at1 (m ((c : Thread nD τ).loc main_arg12)) q)) :
    W9 m ρ c (Proc.devRef .tc main_v77) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W9_arr m ρ c 3).trans ?_
  funext i
  obtain ⟨p, q, rfl⟩ : ∃ (p : Fin 100000) (q : Fin 64), i = ix2 p q := ⟨i 0, i 1, eq_ix2 i⟩
  rw [Cert.KernelIdeal.EpiValue.epi3_apply, Cert.RefBn.bn2_apply]
  show max (at2 (W8 m ρ c (Proc.devRef .tc main_v67)) p q * at2 (W8 m ρ c (Proc.devRef .tc main_v75)) (0 : Fin 1) q
      + at2 (W8 m ρ c (Proc.devRef .tc main_v76)) (0 : Fin 1) q) 0 = _
  rw [hsc q, hsh q, hagg]
  obtain ⟨-, -, -, -, -, hb, hg, hbe, hm, hv⟩ := Cert.PreDecode.bn_params m hpre c q
  exact (Cert.BnAlgebra.bn_point _ _ _ _ _ _ hg hb hm hbe hv).symm

/-- Epilogue region 5 (no normalisation): aggregated entry times one plus the bias is the reference's output. -/
theorem epi5_of
    (hagg : W11 m ρ c (Proc.devRef .tc main_v91) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (hsc : ∀ q : Fin 40, at2 (W11 m ρ c (Proc.devRef .tc main_v93)) (0 : Fin 1) q = Ideal.ofBits .f32 0x3F800000#32)
    (hsh : ∀ q : Fin 40, at2 (W11 m ρ c (Proc.devRef .tc main_v94)) (0 : Fin 1) q = at1 (m ((c : Thread nD τ).loc main_arg15)) q) :
    W12 m ρ c (Proc.devRef .tc main_v95) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W12_arr m ρ c 3).trans ?_
  funext i
  obtain ⟨p, q, rfl⟩ : ∃ (p : Fin 100000) (q : Fin 40), i = ix2 p q := ⟨i 0, i 1, eq_ix2 i⟩
  rw [Cert.KernelIdeal.EpiValue.epi5_apply, Cert.RefBn.out_apply]
  show at2 (W11 m ρ c (Proc.devRef .tc main_v91)) p q * at2 (W11 m ρ c (Proc.devRef .tc main_v93)) (0 : Fin 1) q
      + at2 (W11 m ρ c (Proc.devRef .tc main_v94)) (0 : Fin 1) q = _
  rw [hsc q, hsh q, hagg]
  exact Cert.BnAlgebra.bias_point _ _

end Cert.Bridge

end
-- ==== Proof.BridgeZ.lean ====
import proofs.«145570_j73967926772366_1_alg».proof.Defs
import proofs.«145570_j73967926772366_1_alg».proof.Proof.Gen.KernelIdeal.Frame
import proofs.«145570_j73967926772366_1_alg».proof.Proof.RefRead
import proofs.«145570_j73967926772366_1_alg».proof.Proof.HostKeep
import proofs.«145570_j73967926772366_1_alg».proof.Proof.BridgeA
import proofs.«145570_j73967926772366_1_alg».proof.Proof.BridgeH
import proofs.«145570_j73967926772366_1_alg».proof.Proof.BridgeR

set_option maxRecDepth 16384

noncomputable section

/-! # From the launch memory to the result

The program's boundaries in order: the edge bookkeeping; then three times a linear region, the host's gather, scaling
and accumulating scatter, and an epilogue region. A buffer written once keeps its contents across every later boundary
(the program is in single-assignment form), so the index vectors, the per-edge normalisation and the argument arrays are
read at each boundary as they were first written. Composing the boundary steps gives the result buffer's contents as the
reference's last stage. -/

namespace Cert.Bridge

open Cert.KernelIdeal Cert.KernelIdeal.Gen Cert.KernelIdeal.Keep
open Idealize.ShloMosaic Idealize.ShloMosaic.TcCoe Idealize.SL.Sem

variable [hPre_finite_inputs : Cert.Pre_finite_inputs.Facts]
variable (m : (ℓ : Loc nD τ sig) → Buf (Elt Ideal) ℓ) (ρ : Dev nD → PrngReg)

/-- After the first linear region: the first layer's product. -/
theorem layer1_lin (c : Dev nD) : W4 m ρ c (Proc.devRef .tc main_v30) = Cert.ReferenceIdeal.Read.val_main_v30 (F := Ideal) (m ((c : Thread nD τ).loc main_arg0)) (m ((c : Thread nD τ).loc main_arg2)) :=
  lin0_of m ρ c ((W3_keep m ρ c main_arg0 (by decide)).trans ((W2_keep m ρ c main_arg0 (by decide)).trans ((W1_keep m ρ c main_arg0 (by decide)).trans (W0_eq m ρ c main_arg0)))) ((W3_keep m ρ c main_arg2 (by decide)).trans ((W2_keep m ρ c main_arg2 (by decide)).trans ((W1_keep m ρ c main_arg2 (by decide)).trans (W0_eq m ρ c main_arg2))))

/-- After the first epilogue: the first layer's output. -/
theorem layer1_out (hpre : Cert.Pre_KernelIdeal m) (c : Dev nD) : W6 m ρ c (Proc.devRef .tc main_v53) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  epi1_of m ρ c hpre
    (agg1_of m ρ c (layer1_lin m ρ c) ((W4_keep m ρ c main_v3 (by decide)).trans (w3_v3 m ρ c)) ((W4_keep m ρ c main_v6 (by decide)).trans (w3_v6 m ρ c)) ((W4_keep m ρ c main_v29 (by decide)).trans (w3_v29 m ρ c)))
    (fun q => scale1_of m ρ c ((W4_keep m ρ c main_arg4 (by decide)).trans ((W3_keep m ρ c main_arg4 (by decide)).trans ((W2_keep m ρ c main_arg4 (by decide)).trans ((W1_keep m ρ c main_arg4 (by decide)).trans (W0_eq m ρ c main_arg4))))) ((W4_keep m ρ c main_arg7 (by decide)).trans ((W3_keep m ρ c main_arg7 (by decide)).trans ((W2_keep m ρ c main_arg7 (by decide)).trans ((W1_keep m ρ c main_arg7 (by decide)).trans (W0_eq m ρ c main_arg7))))) q)
    (fun q => shift1_of m ρ c ((W4_keep m ρ c main_arg4 (by decide)).trans ((W3_keep m ρ c main_arg4 (by decide)).trans ((W2_keep m ρ c main_arg4 (by decide)).trans ((W1_keep m ρ c main_arg4 (by decide)).trans (W0_eq m ρ c main_arg4))))) ((W4_keep m ρ c main_arg7 (by decide)).trans ((W3_keep m ρ c main_arg7 (by decide)).trans ((W2_keep m ρ c main_arg7 (by decide)).trans ((W1_keep m ρ c main_arg7 (by decide)).trans (W0_eq m ρ c main_arg7))))) ((W4_keep m ρ c main_arg3 (by decide)).trans ((W3_keep m ρ c main_arg3 (by decide)).trans ((W2_keep m ρ c main_arg3 (by decide)).trans ((W1_keep m ρ c main_arg3 (by decide)).trans (W0_eq m ρ c main_arg3))))) ((W4_keep m ρ c main_arg6 (by decide)).trans ((W3_keep m ρ c main_arg6 (by decide)).trans ((W2_keep m ρ c main_arg6 (by decide)).trans ((W1_keep m ρ c main_arg6 (by decide)).trans (W0_eq m ρ c main_arg6))))) ((W4_keep m ρ c main_arg5 (by decide)).trans ((W3_keep m ρ c main_arg5 (by decide)).trans ((W2_keep m ρ c main_arg5 (by decide)).trans ((W1_keep m ρ c main_arg5 (by decide)).trans (W0_eq m ρ c main_arg5))))) q)

/-- After the second linear region: the second layer's product. -/
theorem layer2_lin (hpre : Cert.Pre_KernelIdeal m) (c : Dev nD) : W7 m ρ c (Proc.devRef .tc main_v54) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  lin2_of m ρ c (layer1_out m ρ hpre c) ((W6_keep m ρ c main_arg8 (by decide)).trans ((W5_keep m ρ c main_arg8 (by decide)).trans ((W4_keep m ρ c main_arg8 (by decide)).trans ((W3_keep m ρ c main_arg8 (by decide)).trans ((W2_keep m ρ c main_arg8 (by decide)).trans ((W1_keep m ρ c main_arg8 (by decide)).trans (W0_eq m ρ c main_arg8)))))))

/-- After the second epilogue: the second layer's output. -/
theorem layer2_out (hpre : Cert.Pre_KernelIdeal m) (c : Dev nD) : W9 m ρ c (Proc.devRef .tc main_v77) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  epi3_of m ρ c hpre
    (agg2_of m ρ c (layer2_lin m ρ hpre c) ((W7_keep m ρ c main_v3 (by decide)).trans ((W6_keep m ρ c main_v3 (by decide)).trans ((W5_keep m ρ c main_v3 (by decide)).trans ((W4_keep m ρ c main_v3 (by decide)).trans (w3_v3 m ρ c))))) ((W7_keep m ρ c main_v6 (by decide)).trans ((W6_keep m ρ c main_v6 (by decide)).trans ((W5_keep m ρ c main_v6 (by decide)).trans ((W4_keep m ρ c main_v6 (by decide)).trans (w3_v6 m ρ c))))) ((W7_keep m ρ c main_v29 (by decide)).trans ((W6_keep m ρ c main_v29 (by decide)).trans ((W5_keep m ρ c main_v29 (by decide)).trans ((W4_keep m ρ c main_v29 (by decide)).trans (w3_v29 m ρ c))))))
    (fun q => scale2_of m ρ c ((W7_keep m ρ c main_arg10 (by decide)).trans ((W6_keep m ρ c main_arg10 (by decide)).trans ((W5_keep m ρ c main_arg10 (by decide)).trans ((W4_keep m ρ c main_arg10 (by decide)).trans ((W3_keep m ρ c main_arg10 (by decide)).trans ((W2_keep m ρ c main_arg10 (by decide)).trans ((W1_keep m ρ c main_arg10 (by decide)).trans (W0_eq m ρ c main_arg10)))))))) ((W7_keep m ρ c main_arg13 (by decide)).trans ((W6_keep m ρ c main_arg13 (by decide)).trans ((W5_keep m ρ c main_arg13 (by decide)).trans ((W4_keep m ρ c main_arg13 (by decide)).trans ((W3_keep m ρ c main_arg13 (by decide)).trans ((W2_keep m ρ c main_arg13 (by decide)).trans ((W1_keep m ρ c main_arg13 (by decide)).trans (W0_eq m ρ c main_arg13)))))))) q)
    (fun q => shift2_of m ρ c ((W7_keep m ρ c main_arg10 (by decide)).trans ((W6_keep m ρ c main_arg10 (by decide)).trans ((W5_keep m ρ c main_arg10 (by decide)).trans ((W4_keep m ρ c main_arg10 (by decide)).trans ((W3_keep m ρ c main_arg10 (by decide)).trans ((W2_keep m ρ c main_arg10 (by decide)).trans ((W1_keep m ρ c main_arg10 (by decide)).trans (W0_eq m ρ c main_arg10)))))))) ((W7_keep m ρ c main_arg13 (by decide)).trans ((W6_keep m ρ c main_arg13 (by decide)).trans ((W5_keep m ρ c main_arg13 (by decide)).trans ((W4_keep m ρ c main_arg13 (by decide)).trans ((W3_keep m ρ c main_arg13 (by decide)).trans ((W2_keep m ρ c main_arg13 (by decide)).trans ((W1_keep m ρ c main_arg13 (by decide)).trans (W0_eq m ρ c main_arg13)))))))) ((W7_keep m ρ c main_arg9 (by decide)).trans ((W6_keep m ρ c main_arg9 (by decide)).trans ((W5_keep m ρ c main_arg9 (by decide)).trans ((W4_keep m ρ c main_arg9 (by decide)).trans ((W3_keep m ρ c main_arg9 (by decide)).trans ((W2_keep m ρ c main_arg9 (by decide)).trans ((W1_keep m ρ c main_arg9 (by decide)).trans (W0_eq m ρ c main_arg9)))))))) ((W7_keep m ρ c main_arg12 (by decide)).trans ((W6_keep m ρ c main_arg12 (by decide)).trans ((W5_keep m ρ c main_arg12 (by decide)).trans ((W4_keep m ρ c main_arg12 (by decide)).trans ((W3_keep m ρ c main_arg12 (by decide)).trans ((W2_keep m ρ c main_arg12 (by decide)).trans ((W1_keep m ρ c main_arg12 (by decide)).trans (W0_eq m ρ c main_arg12)))))))) ((W7_keep m ρ c main_arg11 (by decide)).trans ((W6_keep m ρ c main_arg11 (by decide)).trans ((W5_keep m ρ c main_arg11 (by decide)).trans ((W4_keep m ρ c main_arg11 (by decide)).trans ((W3_keep m ρ c main_arg11 (by decide)).trans ((W2_keep m ρ c main_arg11 (by decide)).trans ((W1_keep m ρ c main_arg11 (by decide)).trans (W0_eq m ρ c main_arg11)))))))) q)

/-- After the third linear region: the third layer's product. -/
theorem layer3_lin (hpre : Cert.Pre_KernelIdeal m) (c : Dev nD) : W10 m ρ c (Proc.devRef .tc main_v78) = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  lin4_of m ρ c (layer2_out m ρ hpre c) ((W9_keep m ρ c main_arg14 (by decide)).trans ((W8_keep m ρ c main_arg14 (by decide)).trans ((W7_keep m ρ c main_arg14 (by decide)).trans ((W6_keep m ρ c main_arg14 (by decide)).trans ((W5_keep m ρ c main_arg14 (by decide)).trans ((W4_keep m ρ c main_arg14 (by decide)).trans ((W3_keep m ρ c main_arg14 (by decide)).trans ((W2_keep m ρ c main_arg14 (by decide)).trans ((W1_keep m ρ c main_arg14 (by decide)).trans (W0_eq m ρ c main_arg14))))))))))

/-- The whole bridge: under the precondition, what the idealized kernel's result buffer holds after the last region is the
    reference's last stage, as a function of the sixteen argument arrays. -/
theorem result_eq (hpre : Cert.Pre_KernelIdeal m) (c : Dev nD) :
    W12 m ρ c (Proc.devRef .tc main_v95)
      = Cert.ReferenceIdeal.Read.val_main_v112 (F := Ideal)
        (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15)) :=
  epi5_of m ρ c
    (agg3_of m ρ c (layer3_lin m ρ hpre c) ((W10_keep m ρ c main_v3 (by decide)).trans ((W9_keep m ρ c main_v3 (by decide)).trans ((W8_keep m ρ c main_v3 (by decide)).trans ((W7_keep m ρ c main_v3 (by decide)).trans ((W6_keep m ρ c main_v3 (by decide)).trans ((W5_keep m ρ c main_v3 (by decide)).trans ((W4_keep m ρ c main_v3 (by decide)).trans (w3_v3 m ρ c)))))))) ((W10_keep m ρ c main_v6 (by decide)).trans ((W9_keep m ρ c main_v6 (by decide)).trans ((W8_keep m ρ c main_v6 (by decide)).trans ((W7_keep m ρ c main_v6 (by decide)).trans ((W6_keep m ρ c main_v6 (by decide)).trans ((W5_keep m ρ c main_v6 (by decide)).trans ((W4_keep m ρ c main_v6 (by decide)).trans (w3_v6 m ρ c)))))))) ((W10_keep m ρ c main_v29 (by decide)).trans ((W9_keep m ρ c main_v29 (by decide)).trans ((W8_keep m ρ c main_v29 (by decide)).trans ((W7_keep m ρ c main_v29 (by decide)).trans ((W6_keep m ρ c main_v29 (by decide)).trans ((W5_keep m ρ c main_v29 (by decide)).trans ((W4_keep m ρ c main_v29 (by decide)).trans (w3_v29 m ρ c)))))))))
    (fun q => scale3_of m ρ c q)
    (fun q => shift3_of m ρ c ((W10_keep m ρ c main_arg15 (by decide)).trans ((W9_keep m ρ c main_arg15 (by decide)).trans ((W8_keep m ρ c main_arg15 (by decide)).trans ((W7_keep m ρ c main_arg15 (by decide)).trans ((W6_keep m ρ c main_arg15 (by decide)).trans ((W5_keep m ρ c main_arg15 (by decide)).trans ((W4_keep m ρ c main_arg15 (by decide)).trans ((W3_keep m ρ c main_arg15 (by decide)).trans ((W2_keep m ρ c main_arg15 (by decide)).trans ((W1_keep m ρ c main_arg15 (by decide)).trans (W0_eq m ρ c main_arg15))))))))))) q)

end Cert.Bridge

end
-- ==== Proof.lean ====
/- A three-layer graph convolution. Each layer takes the node features through a dense product, gathers the product's rows
   at the edges' source nodes, scales each gathered row by its edge's coefficient, and sums the scaled rows into the rows of
   the edges' target nodes (an accumulating scatter). The first two layers then add a bias, apply a batch normalisation
   with running statistics, and clamp below at zero; the last layer adds its bias only.
   One program normalises an aggregated entry a in the order ((g · ((a + b) − μ)) · r) + β with r = (v + ε)^(−1/2); the other
   folds the normalisation into one scale s = g · r and one shift β + s · (b − μ) per column and computes a · s + shift.
   For real parameters g, b, μ, β and a non-negative real variance v the two agree on the extended reals whatever the
   aggregated entry a is, the infinities included. The two programs share the edge bookkeeping and the gather and scatter
   chain, so their results are one function of the sixteen argument arrays, and both runs leave those arrays as launched. -/
import proofs.«145570_j73967926772366_1_alg».proof.Defs
import proofs.«145570_j73967926772366_1_alg».proof.Proof.Gen.Kernel
import proofs.«145570_j73967926772366_1_alg».proof.Proof.Gen.Kernel.Skeleton
import proofs.«145570_j73967926772366_1_alg».proof.Proof.Gen.Kernel.Launch
import proofs.«145570_j73967926772366_1_alg».proof.Proof.Gen.Kernel.Points
import proofs.«145570_j73967926772366_1_alg».proof.Proof.Gen.Kernel.Frame
import proofs.«145570_j73967926772366_1_alg».proof.Proof.Gen.KernelIdeal
import proofs.«145570_j73967926772366_1_alg».proof.Proof.Gen.KernelIdeal.Skeleton
import proofs.«145570_j73967926772366_1_alg».proof.Proof.Gen.KernelIdeal.Launch
import proofs.«145570_j73967926772366_1_alg».proof.Proof.Gen.KernelIdeal.Points
import proofs.«145570_j73967926772366_1_alg».proof.Proof.Gen.KernelIdeal.Frame
import proofs.«145570_j73967926772366_1_alg».proof.Proof.Gen.ReferenceIdeal
import proofs.«145570_j73967926772366_1_alg».proof.Proof.RefRun
import proofs.«145570_j73967926772366_1_alg».proof.Proof.RefRead
import proofs.«145570_j73967926772366_1_alg».proof.Proof.KernelRun
import proofs.«145570_j73967926772366_1_alg».proof.Proof.BridgeZ
import proofs.«145570_j73967926772366_1_alg».proof.Proof.Gen.Pre_finite_inputs
import Idealize.ShloMosaic.Adequacy
import Idealize.ShloMosaic.Init

noncomputable section

namespace Cert.Proof

open Idealize.ShloMosaic Idealize.SL.Sem

/-- The program as compiled runs to the end, nothing faulting, its argument arrays as launched. -/
theorem frame_p : Cert.frame_Kernel := fun m ρ _ => Cert.Kernel.Gen.frame m ρ

/-- So does the same program read on the extended reals. -/
theorem frame_pi : Cert.frame_KernelIdeal := fun m ρ _ => Cert.KernelIdeal.Gen.frame m ρ

/-- So does the other program: its run names its result too, which is dropped here. -/
theorem frame_ri : Cert.frame_ReferenceIdeal := fun m ρ _ =>
  (θ_run Cert.ReferenceIdeal.defs _ _).mono (fun _ h c => (h c).2) (Cert.ReferenceIdeal.Value.run (F := Ideal) m ρ)

/-- Reading the program on the extended reals rewrote none of its operations: nothing to preserve. -/
theorem preserves : Cert.preserves_Kernel_KernelIdeal := trivial

/-- On the extended reals, from memories that agree on the sixteen argument arrays, both programs run to the end with
    those arrays as launched and with equal results: the first program's result buffer ends at the contents after its last
    region, the second's at its last stage as a function of the arguments, and under the precondition these are one
    function of the arguments. -/
theorem algebraic : Cert.algebraic_KernelIdeal_ReferenceIdeal := by
  intro m ρ m' ρ' hpre hagree
  refine ⟨_, Cert.KernelIdeal.RunValue.run_named (F := Ideal) m ρ, ?_⟩
  refine (θ_run Cert.ReferenceIdeal.defs _ _).mono (fun _ h c => ⟨(h c).1.trans ?_, (h c).2⟩)
    (Cert.ReferenceIdeal.Value.run (F := Ideal) m' ρ')
  -- the second program's result as a function of ITS arguments, which are the first program's
  rw [Cert.ReferenceIdeal.Read.val_main_v112_eq,
    (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2.1,
    (hagree c).2.2.2.2.2.2.2.2.2.2.2.2.2.1, (hagree c).2.2.2.2.2.2.2.2.2.2.2.2.2.2.1,
    (hagree c).2.2.2.2.2.2.2.2.2.2.2.2.2.2.2]
  exact (Cert.Bridge.result_eq m ρ hpre c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
